-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x300 : Shape := ⟨2, ![100000, 300]⟩
abbrev S100000x64 : Shape := ⟨2, ![100000, 64]⟩
abbrev S2x1600000 : Shape := ⟨2, ![2, 1600000]⟩
abbrev S64x300 : Shape := ⟨2, ![64, 300]⟩
abbrev S64 : Shape := ⟨1, ![64]⟩
abbrev S64x64 : Shape := ⟨2, ![64, 64]⟩
abbrev S2x64 : Shape := ⟨2, ![2, 64]⟩
abbrev S2 : Shape := ⟨1, ![2]⟩
abbrev S_ : Shape := ⟨0, ![]⟩

class Facts : Prop where
  bcast_S_S100000x300 : S_.BroadcastsInDim S100000x300 (![] : Fin 0 → Fin S100000x300.rank)
  reducesTo_S100000x300_S_d0_1 : S100000x300.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x300 : S_.BroadcastsInDim S64x300 (![] : Fin 0 → Fin S64x300.rank)
  reducesTo_S64x300_S_d0_1 : S64x300.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64 : S_.BroadcastsInDim S2x64 (![] : Fin 0 → Fin S2x64.rank)
  reducesTo_S2x64_S_d0_1 : S2x64.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg20 : FVec F S2x64 .f32) (main_arg21 : FVec F S2 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S2x64 .f32 := Host.absf main_arg20
  let main_cst_34 : FVec F S_ .f32 := constant S_ .f32 0x7F800000#32
  let main_v90 : FVec F S2x64 .f32 := broadcastInDim S2x64 ![] bcast_S_S2x64 main_cst_34
  let main_v91 : IVec S2x64 1 := cmpf .olt main_v89 main_v90
  let main_c_35 : IVec S_ 1 := constantI S_ 1 1#1
  let main_v92 : IVec S_ 1 := (fun x v => Host.reduce IntOp.andi x v reducesTo_S2x64_S_d0_1 h_S_) main_v91 main_c_35
  let main_v93 : IVec S_ 1 := andi main_v88 main_v92
  let main_v94 : FVec F S2 .f32 := Host.absf main_arg21
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg16 : FVec F S64x64 .f32) (main_arg17 : FVec F S64x64 .f32) (main_arg18 : FVec F S64 .f32) (main_arg19 : FVec F S64x64 .f32) (main_arg20 : FVec F S2x64 .f32) (main_arg21 : FVec F S2 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S2x64 .f32) (main_arg21 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg13
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg14
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S2x64 .f32) (main_arg21 : FVec F S2 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S2x64 .f32) (main_arg21 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x300 .f32) (main_arg1 : FVec F S100000x64 .f32) (main_arg2 : IVec S2x1600000 32) (main_arg3 : IVec S2x1600000 32) (main_arg4 : FVec F S64x300 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x64 .f32) (main_arg15 : FVec F S64 .f32) (main_arg16 : FVec F S64x64 .f32) (main_arg17 : FVec F S64x64 .f32) (main_arg18 : FVec F S64 .f32) (main_arg19 : FVec F S64x64 .f32) (main_arg20 : FVec F S2x64 .f32) (main_arg21 : FVec F S2 .f32) : IVec S_ 1 :=
  let main_v0 : FVec F S100000x300 .f32 := Host.absf main_arg0
  let main_cst : FVec F S_ .f32 := constant S_ .f32 0x7F800000#32
  let main_v1 : FVec F S100000x300 .f32 := broadcastInDim S100000x300 ![] bcast_S_S100000x300 main_cst
  let main_v2 : IVec S100000x300 1 := cmpf .olt main_v0 main_v1
  let main_c : IVec S_ 1 := constantI S_ 1 1#1
  let main_v3 : IVec S_ 1 := (fun x v => Host.reduce IntOp.andi x v reducesTo_S100000x300_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x300 .f32 := Host.absf main_arg4
  let main_cst_2 : FVec F S_ .f32 := constant S_ .f32 0x7F800000#32
  let main_v10 : FVec F S64x300 .f32 := broadcastInDim S64x300 ![] bcast_S_S64x300 main_cst_2
  let main_v11 : IVec S64x300 1 := cmpf .olt main_v9 main_v10
  let main_c_3 : IVec S_ 1 := constantI S_ 1 1#1
  let main_v12 : IVec S_ 1 := (fun x v => Host.reduce IntOp.andi x v reducesTo_S64x300_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x300 : Shape := ⟨2, ![100000, 300]⟩
abbrev S100000x64 : Shape := ⟨2, ![100000, 64]⟩
abbrev S2x1600000 : Shape := ⟨2, ![2, 1600000]⟩
abbrev S64x300 : Shape := ⟨2, ![64, 300]⟩
abbrev S64 : Shape := ⟨1, ![64]⟩
abbrev S64x64 : Shape := ⟨2, ![64, 64]⟩
abbrev S2x64 : Shape := ⟨2, ![2, 64]⟩
abbrev S2 : Shape := ⟨1, ![2]⟩
abbrev S5000x300 : Shape := ⟨2, ![5000, 300]⟩
abbrev S5000x64 : Shape := ⟨2, ![5000, 64]⟩
abbrev S300x64 : Shape := ⟨2, ![300, 64]⟩
abbrev S1x64 : Shape := ⟨2, ![1, 64]⟩
abbrev S10000x64 : Shape := ⟨2, ![10000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S128x64 : Shape := ⟨2, ![128, 64]⟩
abbrev S128 : Shape := ⟨1, ![128]⟩
abbrev S100000x128 : Shape := ⟨2, ![100000, 128]⟩
abbrev S5000x128 : Shape := ⟨2, ![5000, 128]⟩
abbrev S64x128 : Shape := ⟨2, ![64, 128]⟩
abbrev S1x128 : Shape := ⟨2, ![1, 128]⟩
abbrev S100000x2 : Shape := ⟨2, ![100000, 2]⟩

abbrev nBuf : Space → Nat
  | .hbm => 121
  | .vmem => 41
  | .smem => 0
  | _ => 0

abbrev bufTy : (tb : Table) → Fin (tcTables nBuf tb) → BufTy
  | .hbm, ⟨0, _⟩ => ⟨S100000x300, .f32⟩
  | .hbm, ⟨1, _⟩ => ⟨S100000x64, .f32⟩
  | .hbm, ⟨2, _⟩ => ⟨S2x1600000, .i32⟩
  | .hbm, ⟨3, _⟩ => ⟨S2x1600000, .i32⟩
  | .hbm, ⟨4, _⟩ => ⟨S64x300, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64x64, .f32⟩
  | .hbm, ⟨15, _⟩ => ⟨S64, .f32⟩
  | .hbm, ⟨16, _⟩ => ⟨S64x64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S2x64, .f32⟩
  | .hbm, ⟨21, _⟩ => ⟨S2, .f32⟩
  | .hbm, ⟨22, _⟩ => ⟨S100000x64, .f32⟩
  | .hbm, ⟨23, _⟩ => ⟨S100000x64, .f32⟩
  | .hbm, ⟨24, _⟩ => ⟨S1x1600000, .i32⟩
  | .hbm, ⟨25, _⟩ => ⟨S1600000, .i32⟩
  | .hbm, ⟨26, _⟩ => ⟨S1x1600000, .i32⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S_, .f32⟩
  | .hbm, ⟨42, _⟩ => ⟨S1600000, .f32⟩
  | .hbm, ⟨43, _⟩ => ⟨S_, .f32⟩
  | .hbm, ⟨44, _⟩ => ⟨S100000, .f32⟩
  | .hbm, ⟨45, _⟩ => ⟨S1600000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x1600000, .i32⟩
  | .hbm, ⟨55, _⟩ => ⟨S1600000, .i32⟩
  | .hbm, ⟨56, _⟩ => ⟨S1x1600000, .i32⟩
  | .hbm, ⟨57, _⟩ => ⟨S1600000, .i32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S100000x64, .f32⟩
  | .hbm, ⟨69, _⟩ => ⟨S1600000x1, .i32⟩
  | .hbm, ⟨70, _⟩ => ⟨S100000x64, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S1x1600000, .i32⟩
  | .hbm, ⟨85, _⟩ => ⟨S1600000, .i32⟩
  | .hbm, ⟨86, _⟩ => ⟨S1x1600000, .i32⟩
  | .hbm, ⟨87, _⟩ => ⟨S1600000, .i32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S_, .f32⟩
  | .hbm, ⟨102, _⟩ => ⟨S1600000, .f32⟩
  | .hbm, ⟨103, _⟩ => ⟨S_, .f32⟩
  | .hbm, ⟨104, _⟩ => ⟨S100000, .f32⟩
  | .hbm, ⟨105, _⟩ => ⟨S1600000x1, .i32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S100000x64, .f32⟩
  | .hbm, ⟨112, _⟩ => ⟨S100000x64, .f32⟩
  | .hbm, ⟨113, _⟩ => ⟨S_, .i32⟩
  | .hbm, ⟨114, _⟩ => ⟨S_, .f32⟩
  | .hbm, ⟨115, _⟩ => ⟨S128x64, .f32⟩
  | .hbm, ⟨116, _⟩ => ⟨S_, .i32⟩
  | .hbm, ⟨117, _⟩ => ⟨S_, .f32⟩
  | .hbm, ⟨118, _⟩ => ⟨S128, .f32⟩
  | .hbm, ⟨119, _⟩ => ⟨S100000x128, .f32⟩
  | .hbm, ⟨120, _⟩ => ⟨S100000x2, .f32⟩
  | .local _ .vmem, ⟨0, _⟩ => ⟨S5000x300, .f32⟩
  | .local _ .vmem, ⟨1, _⟩ => ⟨S5000x300, .f32⟩
  | .local _ .vmem, ⟨2, _⟩ => ⟨S64x300, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S64x64, .f32⟩
  | .local _ .vmem, ⟨26, _⟩ => ⟨S64, .f32⟩
  | .local _ .vmem, ⟨27, _⟩ => ⟨S64x64, .f32⟩
  | .local _ .vmem, ⟨28, _⟩ => ⟨S10000x64, .f32⟩
  | .local _ .vmem, ⟨29, _⟩ => ⟨S10000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S128x64, .f32⟩
  | .local _ .vmem, ⟨38, _⟩ => ⟨S128, .f32⟩
  | .local _ .vmem, ⟨39, _⟩ => ⟨S5000x128, .f32⟩
  | .local _ .vmem, ⟨40, _⟩ => ⟨S5000x128, .f32⟩
  | _, _ => ⟨S100000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_4 : Ref sig .tc := ⟨.hbm, 58, rfl⟩
abbrev main_v30 : Ref sig .tc := ⟨.hbm, 59, rfl⟩
abbrev main_v31 : Ref sig .tc := ⟨.hbm, 60, rfl⟩
abbrev main_c_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_9 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_10 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_13 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_15 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_16 : Ref sig .tc := ⟨.hbm, 113, rfl⟩
abbrev main_call0_v0 : Ref sig .tc := ⟨.hbm, 114, rfl⟩
abbrev main_v73 : Ref sig .tc := ⟨.hbm, 115, rfl⟩
abbrev main_c_17 : Ref sig .tc := ⟨.hbm, 116, rfl⟩
abbrev main_call1_v0 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg7_0 : Ref sig .tc := ⟨.vmem, 39, rfl⟩
abbrev cc4_stg7_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem7_1 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  inb_S5000x300_S5000x300_0_0 : ∀ a, (![0, 0] : Fin 2 → Nat) a + S5000x300.size a ≤ S5000x300.size a
  h_S5000x300 : 0 < S5000x300.numel
  bitsLt_bf16_f32 : FTy.bits .bf16 < FTy.bits .f32
  inb_S64x300_S64x300_0_0 : ∀ a, (![0, 0] : Fin 2 → Nat) a + S64x300.size a ≤ S64x300.size a
  h_S64x300 : 0 < S64x300.numel
  transposes_S64x300_p1_0_S300x64 : S64x300.Transposes [1, 0] S300x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  broadcasts_S1x64_S10000x64 : S1x64.Broadcasts S10000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S10000x64_S10000x64 : S10000x64.ShapeCasts S10000x64
  pads_S2x64_S128x64_01260_000 : S2x64.Pads (![0, 0] : Fin 2 → Nat) ![126, 0] ![0, 0] S128x64
  h_S_ : 0 < S_.numel
  pads_S2_S128_01260 : S2.Pads (![0] : Fin 1 → Nat) ![126] ![0] S128
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  transposes_S128x64_p1_0_S64x128 : S128x64.Transposes [1, 0] S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S100000x128_S100000x2_0_0 : S100000x128.Slices ![0, 0] S100000x2
  dot_S5000x300_S300x64_S5000x64_1_0_0_1_n_n_wf : DotDims.WF S5000x300 S300x64 S5000x64 [1] [0] [0] [1] [] []
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x300.size a ≤ S100000x300.size a
  hwx0_0 : ∀ i : grid0.Coords, EltTy.bits .f32 = 32 ∨ (Rect.block (s := S100000x300) S5000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x300.size a ≤ S64x300.size a
  hwx0_1 : ∀ i : grid0.Coords, EltTy.bits .f32 = 32 ∨ (Rect.block (s := S64x300) S64x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)

variable [Facts₀]

def dot_S5000x300_S300x64_S5000x64_1_0_0_1_n_n : DotDims S5000x300 S300x64 S5000x64 where
  lhsContracting := [1]
  rhsContracting := [0]
  lhsNonContracting := [0]
  rhsNonContracting := [1]
  lhsBatch := []
  rhsBatch := []
  wf := dot_S5000x300_S300x64_S5000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v75) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x300 : Shape := ⟨2, ![100000, 300]⟩
abbrev S100000x64 : Shape := ⟨2, ![100000, 64]⟩
abbrev S2x1600000 : Shape := ⟨2, ![2, 1600000]⟩
abbrev S64x300 : Shape := ⟨2, ![64, 300]⟩
abbrev S64 : Shape := ⟨1, ![64]⟩
abbrev S64x64 : Shape := ⟨2, ![64, 64]⟩
abbrev S2x64 : Shape := ⟨2, ![2, 64]⟩
abbrev S2 : Shape := ⟨1, ![2]⟩
abbrev S300x64 : Shape := ⟨2, ![300, 64]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x2 : Shape := ⟨2, ![64, 2]⟩
abbrev S100000x2 : Shape := ⟨2, ![100000, 2]⟩
abbrev S1x2 : Shape := ⟨2, ![1, 2]⟩

abbrev nBuf : Space → Nat
  | .hbm => 160
  | .vmem => 0
  | .smem => 0
  | _ => 0

abbrev hbmTy0_0 (i : Nat) : BufTy := match i % 128 with
  | 0 => ⟨S100000x300, .f32⟩
  | 1 => ⟨S100000x64, .f32⟩
  | 2 => ⟨S2x1600000, .i32⟩
  | 3 => ⟨S2x1600000, .i32⟩
  | 4 => ⟨S64x300, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x64, .f32⟩
  | 15 => ⟨S64, .f32⟩
  | 16 => ⟨S64x64, .f32⟩
  | 17 => ⟨S64x64, .f32⟩
  | 18 => ⟨S64, .f32⟩
  | 19 => ⟨S64x64, .f32⟩
  | 20 => ⟨S2x64, .f32⟩
  | 21 => ⟨S2, .f32⟩
  | 22 => ⟨S300x64, .f32⟩
  | 23 => ⟨S100000x64, .f32⟩
  | 24 => ⟨S1x64, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S64x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S1x1600000, .i32⟩
  | 39 => ⟨S1600000, .i32⟩
  | 40 => ⟨S1x1600000, .i32⟩
  | 41 => ⟨S1600000, .i32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S_, .f32⟩
  | 52 => ⟨S100000x64, .f32⟩
  | 53 => ⟨S1600000x1, .i32⟩
  | 54 => ⟨S100000x64, .f32⟩
  | 55 => ⟨S_, .f32⟩
  | 56 => ⟨S1600000, .f32⟩
  | 57 => ⟨S_, .f32⟩
  | 58 => ⟨S100000, .f32⟩
  | 59 => ⟨S1600000x1, .i32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x64, .f32⟩
  | 66 => ⟨S100000x64, .f32⟩
  | 67 => ⟨S64x64, .f32⟩
  | 68 => ⟨S100000x64, .f32⟩
  | 69 => ⟨S1x64, .f32⟩
  | 70 => ⟨S100000x64, .f32⟩
  | 71 => ⟨S100000x64, .f32⟩
  | 72 => ⟨S64x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S1x1600000, .i32⟩
  | 79 => ⟨S1600000, .i32⟩
  | 80 => ⟨S1x1600000, .i32⟩
  | 81 => ⟨S1600000, .i32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S_, .f32⟩
  | 96 => ⟨S1600000, .f32⟩
  | 97 => ⟨S_, .f32⟩
  | 98 => ⟨S100000, .f32⟩
  | 99 => ⟨S1600000x1, .i32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S64x64, .f32⟩
  | 108 => ⟨S100000x64, .f32⟩
  | 109 => ⟨S1x64, .f32⟩
  | 110 => ⟨S100000x64, .f32⟩
  | 111 => ⟨S100000x64, .f32⟩
  | 112 => ⟨S64x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x1600000, .i32⟩
  | 119 => ⟨S1600000, .i32⟩
  | 120 => ⟨S1x1600000, .i32⟩
  | 121 => ⟨S1600000, .i32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x300, .f32⟩

abbrev hbmTy0_1 (i : Nat) : BufTy := match i % 128 with
  | 0 => ⟨S1600000, .i32⟩
  | 1 => ⟨S1600000x1, .i32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x64, .f32⟩
  | 18 => ⟨S100000x64, .f32⟩
  | 19 => ⟨S64x64, .f32⟩
  | 20 => ⟨S100000x64, .f32⟩
  | 21 => ⟨S1x64, .f32⟩
  | 22 => ⟨S100000x64, .f32⟩
  | 23 => ⟨S100000x64, .f32⟩
  | 24 => ⟨S64x64, .f32⟩
  | 25 => ⟨S100000x64, .f32⟩
  | 26 => ⟨S100000x64, .f32⟩
  | 27 => ⟨S64x2, .f32⟩
  | 28 => ⟨S100000x2, .f32⟩
  | 29 => ⟨S1x2, .f32⟩
  | 30 => ⟨S100000x2, .f32⟩
  | 31 => ⟨S100000x2, .f32⟩
  | _ => ⟨S100000x300, .f32⟩

abbrev hbmTy (i : Nat) : BufTy := match i / 128 with
  | 0 => hbmTy0_0 i
  | 1 => hbmTy0_1 i
  | _ => ⟨S100000x300, .f32⟩

abbrev bufTy : (tb : Table) → Fin (tcTables nBuf tb) → BufTy
  | .hbm, ⟨i, _⟩ => hbmTy i
  | _, _ => ⟨S100000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_call0_cst : Ref sig .tc := ⟨.hbm, 27, rfl⟩
abbrev main_call0_v0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call1_cst : Ref sig .tc := ⟨.hbm, 35, rfl⟩
abbrev main_call1_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_1 : Ref sig .tc := ⟨.hbm, 55, rfl⟩
abbrev main_v26 : Ref sig .tc := ⟨.hbm, 56, rfl⟩
abbrev main_cst_2 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_3 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_call2_cst : Ref sig .tc := ⟨.hbm, 75, rfl⟩
abbrev main_call2_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_4 : Ref sig .tc := ⟨.hbm, 82, rfl⟩
abbrev main_v48 : Ref sig .tc := ⟨.hbm, 83, rfl⟩
abbrev main_v49 : Ref sig .tc := ⟨.hbm, 84, rfl⟩
abbrev main_c_5 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_6 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_7 : Ref sig .tc := ⟨.hbm, 95, rfl⟩
abbrev main_v58 : Ref sig .tc := ⟨.hbm, 96, rfl⟩
abbrev main_cst_8 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_9 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call3_cst : Ref sig .tc := ⟨.hbm, 115, rfl⟩
abbrev main_call3_v0 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_10 : Ref sig .tc := ⟨.hbm, 122, rfl⟩
abbrev main_v80 : Ref sig .tc := ⟨.hbm, 123, rfl⟩
abbrev main_v81 : Ref sig .tc := ⟨.hbm, 124, rfl⟩
abbrev main_c_11 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_12 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_13 : Ref sig .tc := ⟨.hbm, 135, rfl⟩
abbrev main_v90 : Ref sig .tc := ⟨.hbm, 136, rfl⟩
abbrev main_cst_14 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_15 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩

abbrev nD : Nat := 1
abbrev τ : Topo := Topo.v7x

variable {F : FTy → Type} [FloatOps F]

class Facts₀ : Prop where
  transposes_S64x300_S300x64_1_0 : S64x300.Transposes [1, 0] S300x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S2x64_S64x2_1_0 : S2x64.Transposes [1, 0] S64x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x300_S300x64_S100000x64_1_0_0_1_n_n_wf : DotDims.WF S100000x300 S300x64 S100000x64 [1] [0] [0] [1] [] []
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x2_S100000x2_1_0_0_1_n_n_wf : DotDims.WF S100000x64 S64x2 S100000x2 [1] [0] [0] [1] [] []

variable [Facts₀]

def dot_S100000x300_S300x64_S100000x64_1_0_0_1_n_n : DotDims S100000x300 S300x64 S100000x64 where
  lhsContracting := [1]
  rhsContracting := [0]
  lhsNonContracting := [0]
  rhsNonContracting := [1]
  lhsBatch := []
  rhsBatch := []
  wf := dot_S100000x300_S300x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The idealized kernel's run, with its result named.

  The program is five grid regions among stretches of host operations. Its run is read segment by segment: each
  segment is entered with every unscoped buffer at a known content and left with them at the next one, `W0` at launch
  through `W12` at the return. Every weakly fair execution therefore terminates, without a fault, in a state whose
  unscoped buffers hold `W12`; in particular the result buffer holds `W12` there, and each argument array, which no
  segment writes, holds its launch contents.
-/
import proofs.«125365_j87960930222107_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents `W12` and every argument array as launched. -/
theorem run_value : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c)⟩)

end Cert.KernelIdeal.Run

end
-- ==== Proof.Boundaries.lean ====
/-
  What each segment of the idealized kernel's program leaves unchanged.

  The program's run passes twelve boundaries, `W0` at launch to `W12` at the return. Between two boundaries lies either
  a stretch of host operations, which changes exactly the buffers its operations write (each listed here, in program
  order), or a grid region, which changes only its result array: its input arrays are read, and every other buffer is
  not one of its arrays at all. No segment writes an argument array, so at every boundary each argument holds its launch
  contents.
-/
import proofs.«125365_j87960930222107_1_alg».proof.Proof.Gen.KernelIdeal.Frame

set_option maxRecDepth 16384

noncomputable section

namespace Cert.KernelIdeal.Bounds

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-! ## The host stretches -/

/-- The buffers the stretch `hostOps2` writes. -/
abbrev wr2 : List (Ref sig .tc) := [main_v2, main_v3, main_v4, main_v5, main_c, main_v6, main_v7, main_c_0, main_v8, main_v9, main_v10, main_v11, main_v12, main_cst, main_v13, main_v14, main_v15, main_cst_1, main_v16, main_cst_2, main_v17, main_v18, main_v19, main_cst_3, main_v20, main_v21, main_v22, main_v23, main_v24]
theorem wr2_sub : (hostOps2 : List (HloOp τ sig (Elt F))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem keep_host2 (b : Ref sig .tc) (hb : b ∉ wr2) : W3 m ρ c (Proc.devRef .tc b) = W2 m ρ c (Proc.devRef .tc b) :=
  StableHlo.after_of_writes_sub hostOps2 _ wr2_sub hb

/-- The buffers the stretch `hostOps3` writes. -/
abbrev wr3 : List (Ref sig .tc) := [main_v26, main_v27, main_v28, main_v29, main_c_4, main_v30, main_v31, main_c_5, main_v32, main_v33, main_v34, main_v35, main_v36, main_cst_6, main_v37, main_v38, main_v39, main_cst_7, main_v40, main_cst_8, main_v41, main_v42, main_v43, main_cst_9, main_v44, main_v45, main_v46, main_v47, main_v48]
theorem wr3_sub : (hostOps3 : List (HloOp τ sig (Elt F))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem keep_host3 (b : Ref sig .tc) (hb : b ∉ wr3) : W5 m ρ c (Proc.devRef .tc b) = W4 m ρ c (Proc.devRef .tc b) :=
  StableHlo.after_of_writes_sub hostOps3 _ wr3_sub hb

/-- The buffers the stretch `hostOps4` writes. -/
abbrev wr4 : List (Ref sig .tc) := [main_v50, main_v51, main_v52, main_v53, main_c_10, main_v54, main_v55, main_c_11, main_v56, main_v57, main_v58, main_v59, main_v60, main_cst_12, main_v61, main_v62, main_v63, main_cst_13, main_v64, main_cst_14, main_v65, main_v66, main_v67, main_cst_15, main_v68, main_v69, main_v70, main_v71, main_v72, main_c_16]
theorem wr4_sub : (hostOps4 : List (HloOp τ sig (Elt F))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem keep_host4 (b : Ref sig .tc) (hb : b ∉ wr4) : W7 m ρ c (Proc.devRef .tc b) = W6 m ρ c (Proc.devRef .tc b) :=
  StableHlo.after_of_writes_sub hostOps4 _ wr4_sub hb

/-- The buffers the stretch `hostOps4_1` writes. -/
abbrev wr4_1 : List (Ref sig .tc) := [main_call0_v0, main_v73]
theorem wr4_1_sub : (hostOps4_1 : List (HloOp τ sig (Elt F))).Forall fun op => op.writes ⊆ (wr4_1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem keep_host4_1 (b : Ref sig .tc) (hb : b ∉ wr4_1) : W8 m ρ c (Proc.devRef .tc b) = W7 m ρ c (Proc.devRef .tc b) :=
  StableHlo.after_of_writes_sub hostOps4_1 _ wr4_1_sub hb

/-- The buffers the stretch `hostOps4_2` writes. -/
abbrev wr4_2 : List (Ref sig .tc) := [main_c_17]
theorem wr4_2_sub : (hostOps4_2 : List (HloOp τ sig (Elt F))).Forall fun op => op.writes ⊆ (wr4_2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem keep_host4_2 (b : Ref sig .tc) (hb : b ∉ wr4_2) : W9 m ρ c (Proc.devRef .tc b) = W8 m ρ c (Proc.devRef .tc b) :=
  StableHlo.after_of_writes_sub hostOps4_2 _ wr4_2_sub hb

/-- The buffers the stretch `hostOps4_3` writes. -/
abbrev wr4_3 : List (Ref sig .tc) := [main_call1_v0, main_v74]
theorem wr4_3_sub : (hostOps4_3 : List (HloOp τ sig (Elt F))).Forall fun op => op.writes ⊆ (wr4_3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem keep_host4_3 (b : Ref sig .tc) (hb : b ∉ wr4_3) : W10 m ρ c (Proc.devRef .tc b) = W9 m ρ c (Proc.devRef .tc b) :=
  StableHlo.after_of_writes_sub hostOps4_3 _ wr4_3_sub hb

/-- The buffers the stretch `hostOps5` writes. -/
abbrev wr5 : List (Ref sig .tc) := [main_v76]
theorem wr5_sub : (hostOps5 : List (HloOp τ sig (Elt F))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer the stretch does not write holds after it what it held before. -/
theorem keep_host5 (b : Ref sig .tc) (hb : b ∉ wr5) : W12 m ρ c (Proc.devRef .tc b) = W11 m ρ c (Proc.devRef .tc b) :=
  StableHlo.after_of_writes_sub hostOps5 _ wr5_sub hb

/-! ## The grid regions -/

/-- Every buffer other than region 0's result holds after the region what it held before: a buffer that is none of
    the region's arrays is untouched, and an input array is read, never written. -/
theorem keep_region0 (b : Ref sig .tc) (hb : b ≠ main_v0) : W1 m ρ c (Proc.devRef .tc b) = W0 m ρ c (Proc.devRef .tc b) := by
  by_cases h : ∀ w, Pipeline.arrRef spec0 w ≠ b
  · exact W1_of_ne m ρ c b h
  · push Not at h
    obtain ⟨w, rfl⟩ := h
    fin_cases w
    · exact (W1_arr m ρ c 0).trans (((dat0 (V0 m ρ) c).arrAt_in 0 rfl _).trans (A_eq0 (V0 m ρ) c 0))
    · exact (W1_arr m ρ c 1).trans (((dat0 (V0 m ρ) c).arrAt_in 1 rfl _).trans (A_eq0 (V0 m ρ) c 1))
    · exact (W1_arr m ρ c 2).trans (((dat0 (V0 m ρ) c).arrAt_in 2 rfl _).trans (A_eq0 (V0 m ρ) c 2))
    · exact absurd rfl hb

/-- Every buffer other than region 1's result holds after the region what it held before: a buffer that is none of
    the region's arrays is untouched, and an input array is read, never written. -/
theorem keep_region1 (b : Ref sig .tc) (hb : b ≠ main_v1) : W2 m ρ c (Proc.devRef .tc b) = W1 m ρ c (Proc.devRef .tc b) := by
  by_cases h : ∀ w, Pipeline.arrRef spec1 w ≠ b
  · exact W2_of_ne m ρ c b h
  · push Not at h
    obtain ⟨w, rfl⟩ := h
    fin_cases w
    · exact (W2_arr m ρ c 0).trans (((dat1 (V1 m ρ) c).arrAt_in 0 rfl _).trans (A_eq1 (V1 m ρ) c 0))
    · exact (W2_arr m ρ c 1).trans (((dat1 (V1 m ρ) c).arrAt_in 1 rfl _).trans (A_eq1 (V1 m ρ) c 1))
    · exact (W2_arr m ρ c 2).trans (((dat1 (V1 m ρ) c).arrAt_in 2 rfl _).trans (A_eq1 (V1 m ρ) c 2))
    · exact absurd rfl hb

/-- Every buffer other than region 2's result holds after the region what it held before: a buffer that is none of
    the region's arrays is untouched, and an input array is read, never written. -/
theorem keep_region2 (b : Ref sig .tc) (hb : b ≠ main_v25) : W4 m ρ c (Proc.devRef .tc b) = W3 m ρ c (Proc.devRef .tc b) := by
  by_cases h : ∀ w, Pipeline.arrRef spec2 w ≠ b
  · exact W4_of_ne m ρ c b h
  · push Not at h
    obtain ⟨w, rfl⟩ := h
    fin_cases w
    · exact (W4_arr m ρ c 0).trans (((dat2 (V3 m ρ) c).arrAt_in 0 rfl _).trans (A_eq2 (V3 m ρ) c 0))
    · exact (W4_arr m ρ c 1).trans (((dat2 (V3 m ρ) c).arrAt_in 1 rfl _).trans (A_eq2 (V3 m ρ) c 1))
    · exact (W4_arr m ρ c 2).trans (((dat2 (V3 m ρ) c).arrAt_in 2 rfl _).trans (A_eq2 (V3 m ρ) c 2))
    · exact (W4_arr m ρ c 3).trans (((dat2 (V3 m ρ) c).arrAt_in 3 rfl _).trans (A_eq2 (V3 m ρ) c 3))
    · exact (W4_arr m ρ c 4).trans (((dat2 (V3 m ρ) c).arrAt_in 4 rfl _).trans (A_eq2 (V3 m ρ) c 4))
    · exact absurd rfl hb

/-- Every buffer other than region 3's result holds after the region what it held before: a buffer that is none of
    the region's arrays is untouched, and an input array is read, never written. -/
theorem keep_region3 (b : Ref sig .tc) (hb : b ≠ main_v49) : W6 m ρ c (Proc.devRef .tc b) = W5 m ρ c (Proc.devRef .tc b) := by
  by_cases h : ∀ w, Pipeline.arrRef spec3 w ≠ b
  · exact W6_of_ne m ρ c b h
  · push Not at h
    obtain ⟨w, rfl⟩ := h
    fin_cases w
    · exact (W6_arr m ρ c 0).trans (((dat3 (V5 m ρ) c).arrAt_in 0 rfl _).trans (A_eq3 (V5 m ρ) c 0))
    · exact (W6_arr m ρ c 1).trans (((dat3 (V5 m ρ) c).arrAt_in 1 rfl _).trans (A_eq3 (V5 m ρ) c 1))
    · exact (W6_arr m ρ c 2).trans (((dat3 (V5 m ρ) c).arrAt_in 2 rfl _).trans (A_eq3 (V5 m ρ) c 2))
    · exact (W6_arr m ρ c 3).trans (((dat3 (V5 m ρ) c).arrAt_in 3 rfl _).trans (A_eq3 (V5 m ρ) c 3))
    · exact (W6_arr m ρ c 4).trans (((dat3 (V5 m ρ) c).arrAt_in 4 rfl _).trans (A_eq3 (V5 m ρ) c 4))
    · exact absurd rfl hb

/-- Every buffer other than region 4's result holds after the region what it held before: a buffer that is none of
    the region's arrays is untouched, and an input array is read, never written. -/
theorem keep_region4 (b : Ref sig .tc) (hb : b ≠ main_v75) : W11 m ρ c (Proc.devRef .tc b) = W10 m ρ c (Proc.devRef .tc b) := by
  by_cases h : ∀ w, Pipeline.arrRef spec4 w ≠ b
  · exact W11_of_ne m ρ c b h
  · push Not at h
    obtain ⟨w, rfl⟩ := h
    fin_cases w
    · exact (W11_arr m ρ c 0).trans (((dat4 (V10 m ρ) c).arrAt_in 0 rfl _).trans (A_eq4 (V10 m ρ) c 0))
    · exact (W11_arr m ρ c 1).trans (((dat4 (V10 m ρ) c).arrAt_in 1 rfl _).trans (A_eq4 (V10 m ρ) c 1))
    · exact (W11_arr m ρ c 2).trans (((dat4 (V10 m ρ) c).arrAt_in 2 rfl _).trans (A_eq4 (V10 m ρ) c 2))
    · exact (W11_arr m ρ c 3).trans (((dat4 (V10 m ρ) c).arrAt_in 3 rfl _).trans (A_eq4 (V10 m ρ) c 3))
    · exact (W11_arr m ρ c 4).trans (((dat4 (V10 m ρ) c).arrAt_in 4 rfl _).trans (A_eq4 (V10 m ρ) c 4))
    · exact (W11_arr m ρ c 5).trans (((dat4 (V10 m ρ) c).arrAt_in 5 rfl _).trans (A_eq4 (V10 m ρ) c 5))
    · exact (W11_arr m ρ c 6).trans (((dat4 (V10 m ρ) c).arrAt_in 6 rfl _).trans (A_eq4 (V10 m ρ) c 6))
    · exact absurd rfl hb

/-! ## The arguments -/

/-- The argument arrays of the program. -/
abbrev ARGS : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-! At every boundary each argument array holds its launch contents: no segment writes one. -/

theorem args0 (b : Ref sig .tc) (hb : b ∈ ARGS) : W0 m ρ c (Proc.devRef .tc b) = m ((c : Thread nD τ).loc b) := rfl
theorem args1 (b : Ref sig .tc) (hb : b ∈ ARGS) : W1 m ρ c (Proc.devRef .tc b) = m ((c : Thread nD τ).loc b) :=
  (keep_region0 m ρ c b (fun e => (by decide : main_v0 ∉ ARGS) (e ▸ hb))).trans (args0 m ρ c b hb)
theorem args2 (b : Ref sig .tc) (hb : b ∈ ARGS) : W2 m ρ c (Proc.devRef .tc b) = m ((c : Thread nD τ).loc b) :=
  (keep_region1 m ρ c b (fun e => (by decide : main_v1 ∉ ARGS) (e ▸ hb))).trans (args1 m ρ c b hb)
theorem args3 (b : Ref sig .tc) (hb : b ∈ ARGS) : W3 m ρ c (Proc.devRef .tc b) = m ((c : Thread nD τ).loc b) :=
  (keep_host2 m ρ c b ((by decide : ∀ x ∈ ARGS, x ∉ wr2) b hb)).trans (args2 m ρ c b hb)
theorem args4 (b : Ref sig .tc) (hb : b ∈ ARGS) : W4 m ρ c (Proc.devRef .tc b) = m ((c : Thread nD τ).loc b) :=
  (keep_region2 m ρ c b (fun e => (by decide : main_v25 ∉ ARGS) (e ▸ hb))).trans (args3 m ρ c b hb)
theorem args5 (b : Ref sig .tc) (hb : b ∈ ARGS) : W5 m ρ c (Proc.devRef .tc b) = m ((c : Thread nD τ).loc b) :=
  (keep_host3 m ρ c b ((by decide : ∀ x ∈ ARGS, x ∉ wr3) b hb)).trans (args4 m ρ c b hb)
theorem args6 (b : Ref sig .tc) (hb : b ∈ ARGS) : W6 m ρ c (Proc.devRef .tc b) = m ((c : Thread nD τ).loc b) :=
  (keep_region3 m ρ c b (fun e => (by decide : main_v49 ∉ ARGS) (e ▸ hb))).trans (args5 m ρ c b hb)
theorem args7 (b : Ref sig .tc) (hb : b ∈ ARGS) : W7 m ρ c (Proc.devRef .tc b) = m ((c : Thread nD τ).loc b) :=
  (keep_host4 m ρ c b ((by decide : ∀ x ∈ ARGS, x ∉ wr4) b hb)).trans (args6 m ρ c b hb)
theorem args8 (b : Ref sig .tc) (hb : b ∈ ARGS) : W8 m ρ c (Proc.devRef .tc b) = m ((c : Thread nD τ).loc b) :=
  (keep_host4_1 m ρ c b ((by decide : ∀ x ∈ ARGS, x ∉ wr4_1) b hb)).trans (args7 m ρ c b hb)
theorem args9 (b : Ref sig .tc) (hb : b ∈ ARGS) : W9 m ρ c (Proc.devRef .tc b) = m ((c : Thread nD τ).loc b) :=
  (keep_host4_2 m ρ c b ((by decide : ∀ x ∈ ARGS, x ∉ wr4_2) b hb)).trans (args8 m ρ c b hb)
theorem args10 (b : Ref sig .tc) (hb : b ∈ ARGS) : W10 m ρ c (Proc.devRef .tc b) = m ((c : Thread nD τ).loc b) :=
  (keep_host4_3 m ρ c b ((by decide : ∀ x ∈ ARGS, x ∉ wr4_3) b hb)).trans (args9 m ρ c b hb)
theorem args11 (b : Ref sig .tc) (hb : b ∈ ARGS) : W11 m ρ c (Proc.devRef .tc b) = m ((c : Thread nD τ).loc b) :=
  (keep_region4 m ρ c b (fun e => (by decide : main_v75 ∉ ARGS) (e ▸ hb))).trans (args10 m ρ c b hb)
theorem args12 (b : Ref sig .tc) (hb : b ∈ ARGS) : W12 m ρ c (Proc.devRef .tc b) = m ((c : Thread nD τ).loc b) :=
  (keep_host5 m ρ c b ((by decide : ∀ x ∈ ARGS, x ∉ wr5) b hb)).trans (args11 m ρ c b hb)

end Cert.KernelIdeal.Bounds

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibSageT.lean ====
/-
  A graph-convolution step whose weight matrices are stored transposed, on the extended reals, over rank-2 arrays of any
  extents.

  `tr W` is the transpose. With the weights `W : [N, K]` stored row by output feature, a layer multiplies by `tr W`:
  `proj X W b = max (X (tr W) + b, 0)` is the rectified input projection; `comb A X Wl Wr b = (A (tr Wl) + b) + X (tr Wr)`
  combines an aggregated neighbourhood `A` with the node's own features `X` (in this order of the two additions),
  `combRelu` rectifies it, and `head Y W b = Y (tr W) + b` is the final linear map. The bias `b` is a one-row array added
  to every row. Row `p` of each of them depends on row `p` of the left operands only, so a block of rows computed from the
  same block of rows of the operands is that block of the whole. Narrowing an operand to half precision changes nothing
  on the extended reals, and a matrix product into a zero accumulator is the product; so the vector unit's spelling of
  each layer and the host's spelling are both the layer.
-/
import Idealize.ShloMosaic.PureOps.Ideal.Laws
import Idealize.ShloMosaic.Lib.ValueIdx
import Idealize.ShloMosaic.Lib.ValueLayout
import Idealize.ShloMosaic.Lib.Pipeline.Value
import proofs.«125365_j87960930222107_1_alg».proof.Proof.LibDense

noncomputable section

open scoped BigOperators

namespace Cert.SageT

open Idealize.ShloMosaic Idealize.ShloMosaic.ValueIdx Cert.Dense

/-! ## The layers -/

/-- The transpose of a rank-2 array. -/
def tr {a b : ℕ} (W : Mat a b) : Mat b a := fun i => W (ix2 (c1 i) (c0 i))

theorem tr_apply {a b : ℕ} (W : Mat a b) (p : Fin b) (q : Fin a) : tr W (ix2 p q) = W (ix2 q p) := rfl

/-- The rectified input projection `max (X Wᵀ + b, 0)`. -/
def proj {M K N : ℕ} (X : Mat M K) (W : Mat N K) (b : Mat 1 N) : Mat M N := act X (tr W) b

/-- `(A Wlᵀ + b) + X Wrᵀ`: the aggregated neighbourhood through `Wl` with the bias, plus the node's own row through `Wr`. -/
def comb {M K N : ℕ} (A X : Mat M K) (Wl Wr : Mat N K) (b : Mat 1 N) : Mat M N :=
  fun i => mm A (tr Wl) i + b (ix2 (0 : Fin 1) (c1 i)) + mm X (tr Wr) i

/-- The same, rectified. -/
def combRelu {M K N : ℕ} (A X : Mat M K) (Wl Wr : Mat N K) (b : Mat 1 N) : Mat M N :=
  fun i => max (comb A X Wl Wr b i) 0

/-- The final linear map `Y Wᵀ + b`. -/
def head {M K N : ℕ} (Y : Mat M K) (W : Mat N K) (b : Mat 1 N) : Mat M N :=
  fun i => mm Y (tr W) i + b (ix2 (0 : Fin 1) (c1 i))

theorem comb_apply {M K N : ℕ} (A X : Mat M K) (Wl Wr : Mat N K) (b : Mat 1 N) (p : Fin M) (q : Fin N) :
    comb A X Wl Wr b (ix2 p q)
      = (∑ k : Fin K, A (ix2 p k) * Wl (ix2 q k)) + b (ix2 (0 : Fin 1) q) + ∑ k : Fin K, X (ix2 p k) * Wr (ix2 q k) := rfl

theorem head_apply {M K N : ℕ} (Y : Mat M K) (W : Mat N K) (b : Mat 1 N) (p : Fin M) (q : Fin N) :
    head Y W b (ix2 p q) = (∑ k : Fin K, Y (ix2 p k) * W (ix2 q k)) + b (ix2 (0 : Fin 1) q) := rfl

/-! ## Rows of a layer's result depend on the same rows of its left operands -/

theorem proj_rows {M M' K N : ℕ} (X : Mat M K) (X' : Mat M' K) (W : Mat N K) (b : Mat 1 N)
    (p : Fin M) (p' : Fin M') (hX : ∀ k, X' (ix2 p' k) = X (ix2 p k)) (q : Fin N) :
    proj X' W b (ix2 p' q) = proj X W b (ix2 p q) := act_rows X X' (tr W) b p p' hX q

theorem comb_rows {M M' K N : ℕ} (A X : Mat M K) (A' X' : Mat M' K) (Wl Wr : Mat N K) (b : Mat 1 N)
    (p : Fin M) (p' : Fin M') (hA : ∀ k, A' (ix2 p' k) = A (ix2 p k)) (hX : ∀ k, X' (ix2 p' k) = X (ix2 p k)) (q : Fin N) :
    comb A' X' Wl Wr b (ix2 p' q) = comb A X Wl Wr b (ix2 p q) := by
  simp only [comb_apply, hA, hX]

theorem combRelu_rows {M M' K N : ℕ} (A X : Mat M K) (A' X' : Mat M' K) (Wl Wr : Mat N K) (b : Mat 1 N)
    (p : Fin M) (p' : Fin M') (hA : ∀ k, A' (ix2 p' k) = A (ix2 p k)) (hX : ∀ k, X' (ix2 p' k) = X (ix2 p k)) (q : Fin N) :
    combRelu A' X' Wl Wr b (ix2 p' q) = combRelu A X Wl Wr b (ix2 p q) :=
  congrArg (fun z => max z 0) (comb_rows A X A' X' Wl Wr b p p' hA hX q)

theorem head_rows {M M' K N : ℕ} (Y : Mat M K) (Y' : Mat M' K) (W : Mat N K) (b : Mat 1 N)
    (p : Fin M) (p' : Fin M') (hY : ∀ k, Y' (ix2 p' k) = Y (ix2 p k)) (q : Fin N) :
    head Y' W b (ix2 p' q) = head Y W b (ix2 p q) := by
  simp only [head_apply, hY]

/-! ## The operations the programs spell the layers with, read as functions -/

/-- The transposition of the two axes is `tr`. -/
theorem transpose_eq_tr {a b : ℕ} {φ : FTy} (W : FVec Ideal ⟨2, ![a, b]⟩ φ)
    (h : (⟨2, ![a, b]⟩ : Shape).Transposes [1, 0] ⟨2, ![b, a]⟩) :
    transpose ⟨2, ![b, a]⟩ [1, 0] W h = tr W := by
  funext i
  obtain ⟨p, q, rfl⟩ : ∃ (p : Fin b) (q : Fin a), i = ix2 p q := ⟨i 0, i 1, eq_ix2 i⟩
  exact transpose_apply [1, 0] W h (ix2 p q) (ix2 q p) (fun d => match d with
    | ⟨0, _⟩ => rfl
    | ⟨1, _⟩ => rfl)

/-- The vector unit's bias: the vector cast to one row, that row repeated along the rows. -/
theorem vecRowBias {M N : ℕ} (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    broadcastTo ⟨2, ![M, N]⟩ (shapeCast ⟨2, ![1, N]⟩ b hc) hb = fun i => row b (ix2 (0 : Fin 1) (c1 i)) := by
  funext i
  obtain ⟨p, q, rfl⟩ : ∃ (p : Fin M) (q : Fin N), i = ix2 p q := ⟨i 0, i 1, eq_ix2 i⟩
  rw [broadcastTo_1b_ab_apply, shapeCast_row]
  rfl

/-- The host's bias: the vector broadcast to one row, that row to every row. -/
theorem hostRowBias {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    broadcastInDim ⟨2, ![M, N]⟩ ![0, 1] h2 (broadcastInDim ⟨2, ![1, N]⟩ ![1] h1 b)
      = fun i => row b (ix2 (0 : Fin 1) (c1 i)) := by
  funext i
  obtain ⟨p, q, rfl⟩ : ∃ (p : Fin M) (q : Fin N), i = ix2 p q := ⟨i 0, i 1, eq_ix2 i⟩
  have hq : q.val = if N = 1 then 0 else q.val := by
    split
    · have := q.isLt; omega
    · rfl
  rw [broadcastInDim_apply ![0, 1] h2 _ (ix2 p q) (ix2 (0 : Fin 1) q) (fun d => by
        match d with
        | ⟨0, _⟩ => rfl
        | ⟨1, _⟩ => exact hq),
    broadcastInDim_apply ![1] h1 b (ix2 (0 : Fin 1) q) (ix1 q) (fun d => by
        match d with
        | ⟨0, _⟩ => exact hq)]
  rfl

/-- The vector unit's rectifier: the maximum with a zero splat. -/
theorem vecRelu {S : Shape} (Y : FVec Ideal S .f32) :
    maximumf Y (broadcast S (Scalar.ofBits (F := Ideal) .f32 0x00000000#32)) = fun i => max (Y i) 0 := by
  funext i
  show max (Y i) (Ideal.ofBits .f32 0x00000000#32) = _
  rw [Ideal.ofBits_zero_f32]

/-- The host's rectifier: the maximum with a broadcast scalar zero. -/
theorem hostRelu {S : Shape} (Y : FVec Ideal S .f32) (h0 : (⟨0, ![]⟩ : Shape).BroadcastsInDim S ![]) :
    maximumf Y (broadcastInDim S ![] h0 (constant (F := Ideal) ⟨0, ![]⟩ .f32 0x00000000#32)) = fun i => max (Y i) 0 := by
  funext i
  show max (Y i) (broadcastInDim S ![] h0 (constant (F := Ideal) ⟨0, ![]⟩ .f32 0x00000000#32) i) = _
  rw [broadcastInDim_apply ![] h0 _ i ix0 (fun a => a.elim0)]
  show max (Y i) (Ideal.ofBits .f32 0x00000000#32) = _
  rw [Ideal.ofBits_zero_f32]

/-! ## The vector unit's spellings -/

section Forms
variable {M K N : ℕ} (D : DotDims ⟨2, ![M, K]⟩ ⟨2, ![K, N]⟩ ⟨2, ![M, N]⟩)
  (h1 : D.lhsContracting = [1]) (h2 : D.rhsContracting = [0]) (h3 : D.lhsNonContracting = [0])
  (h4 : D.rhsNonContracting = [1]) (h5 : D.lhsBatch = []) (h6 : D.rhsBatch = [])
include h1 h2 h3 h4 h5 h6

/-- A product with a half-precision transposed right operand into a zero accumulator is the product with `tr`. -/
theorem vecMatT (X : FVec Ideal ⟨2, ![M, K]⟩ .f32) (W : FVec Ideal ⟨2, ![N, K]⟩ .f32)
    (hlt : FTy.bf16.bits < FTy.f32.bits) (ht : (⟨2, ![N, K]⟩ : Shape).Transposes [1, 0] ⟨2, ![K, N]⟩) :
    matmul (F := Ideal) D none (truncf .bf16 X hlt) (transpose ⟨2, ![K, N]⟩ [1, 0] (truncf .bf16 W hlt) ht)
        (constant ⟨2, ![M, N]⟩ .f32 0x00000000#32) = mm X (tr W) := by
  rw [matmul_zero_eq_mm D h1 h2 h3 h4 h5 h6, transpose_eq_tr]
  rfl

/-- The host's product with a transposed right operand is the product with `tr`. -/
theorem hostMatT (X : FVec Ideal ⟨2, ![M, K]⟩ .f32) (W : FVec Ideal ⟨2, ![N, K]⟩ .f32)
    (ht : (⟨2, ![N, K]⟩ : Shape).Transposes [1, 0] ⟨2, ![K, N]⟩) :
    Host.dotGeneral (F := Ideal) D none X (transpose ⟨2, ![K, N]⟩ [1, 0] W ht) = mm X (tr W) := by
  rw [hostDot_eq_mm D h1 h2 h3 h4 h5 h6, transpose_eq_tr]

theorem vecProj (X : FVec Ideal ⟨2, ![M, K]⟩ .f32) (W : FVec Ideal ⟨2, ![N, K]⟩ .f32) (b : FVec Ideal ⟨1, ![N]⟩ .f32)
    (hlt : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩) :
    maximumf (addf (matmul (F := Ideal) D none (truncf .bf16 X hlt) (transpose ⟨2, ![K, N]⟩ [1, 0] (truncf .bf16 W hlt) ht)
          (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32))
      = proj X W (row b) := by
  rw [vecRelu, vecMatT D h1 h2 h3 h4 h5 h6, vecRowBias]
  rfl

theorem hostProj (X : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (g1 : (⟨1, ![N]⟩ : Shape).BroadcastsInDim ⟨2, ![1, N]⟩ ![1])
    (g2 : (⟨2, ![1, N]⟩ : Shape).BroadcastsInDim ⟨2, ![M, N]⟩ ![0, 1])
    (g0 : (⟨0, ![]⟩ : Shape).BroadcastsInDim ⟨2, ![M, N]⟩ ![]) :
    maximumf (addf (Host.dotGeneral (F := Ideal) D none X (transpose ⟨2, ![K, N]⟩ [1, 0] W ht))
          (broadcastInDim ⟨2, ![M, N]⟩ ![0, 1] g2 (broadcastInDim ⟨2, ![1, N]⟩ ![1] g1 b)))
        (broadcastInDim ⟨2, ![M, N]⟩ ![] g0 (constant (F := Ideal) ⟨0, ![]⟩ .f32 0x00000000#32))
      = proj X W (row b) := by
  rw [hostRelu, hostMatT D h1 h2 h3 h4 h5 h6, hostRowBias]
  rfl

theorem vecComb (A X : FVec Ideal ⟨2, ![M, K]⟩ .f32) (Wl Wr : FVec Ideal ⟨2, ![N, K]⟩ .f32) (b : FVec Ideal ⟨1, ![N]⟩ .f32)
    (hlt : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩) :
    addf (addf (matmul (F := Ideal) D none (truncf .bf16 A hlt) (transpose ⟨2, ![K, N]⟩ [1, 0] (truncf .bf16 Wl hlt) ht)
          (constant ⟨2, ![M, N]⟩ .f32 0x00000000#32)) (broadcastTo ⟨2, ![M, N]⟩ (shapeCast ⟨2, ![1, N]⟩ b hc) hb))
        (matmul (F := Ideal) D none (truncf .bf16 X hlt) (transpose ⟨2, ![K, N]⟩ [1, 0] (truncf .bf16 Wr hlt) ht)
          (constant ⟨2, ![M, N]⟩ .f32 0x00000000#32))
      = comb A X Wl Wr (row b) := by
  rw [vecMatT D h1 h2 h3 h4 h5 h6, vecMatT D h1 h2 h3 h4 h5 h6, vecRowBias]
  rfl

theorem hostComb (A X : FVec Ideal ⟨2, ![M, K]⟩ .f32) (Wl Wr : FVec Ideal ⟨2, ![N, K]⟩ .f32) (b : FVec Ideal ⟨1, ![N]⟩ .f32)
    (ht : (⟨2, ![N, K]⟩ : Shape).Transposes [1, 0] ⟨2, ![K, N]⟩)
    (g1 : (⟨1, ![N]⟩ : Shape).BroadcastsInDim ⟨2, ![1, N]⟩ ![1])
    (g2 : (⟨2, ![1, N]⟩ : Shape).BroadcastsInDim ⟨2, ![M, N]⟩ ![0, 1]) :
    addf (addf (Host.dotGeneral (F := Ideal) D none A (transpose ⟨2, ![K, N]⟩ [1, 0] Wl ht))
          (broadcastInDim ⟨2, ![M, N]⟩ ![0, 1] g2 (broadcastInDim ⟨2, ![1, N]⟩ ![1] g1 b)))
        (Host.dotGeneral (F := Ideal) D none X (transpose ⟨2, ![K, N]⟩ [1, 0] Wr ht))
      = comb A X Wl Wr (row b) := by
  rw [hostMatT D h1 h2 h3 h4 h5 h6, hostMatT D h1 h2 h3 h4 h5 h6, hostRowBias]
  rfl

theorem vecCombRelu (A X : FVec Ideal ⟨2, ![M, K]⟩ .f32) (Wl Wr : FVec Ideal ⟨2, ![N, K]⟩ .f32) (b : FVec Ideal ⟨1, ![N]⟩ .f32)
    (hlt : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩) :
    maximumf (addf (addf (matmul (F := Ideal) D none (truncf .bf16 A hlt) (transpose ⟨2, ![K, N]⟩ [1, 0] (truncf .bf16 Wl hlt) ht)
            (constant ⟨2, ![M, N]⟩ .f32 0x00000000#32)) (broadcastTo ⟨2, ![M, N]⟩ (shapeCast ⟨2, ![1, N]⟩ b hc) hb))
          (matmul (F := Ideal) D none (truncf .bf16 X hlt) (transpose ⟨2, ![K, N]⟩ [1, 0] (truncf .bf16 Wr hlt) ht)
            (constant ⟨2, ![M, N]⟩ .f32 0x00000000#32)))
        (broadcast ⟨2, ![M, N]⟩ (Scalar.ofBits (F := Ideal) .f32 0x00000000#32))
      = combRelu A X Wl Wr (row b) := by
  rw [vecRelu, vecComb D h1 h2 h3 h4 h5 h6]
  rfl

theorem hostCombRelu (A X : FVec Ideal ⟨2, ![M, K]⟩ .f32) (Wl Wr : FVec Ideal ⟨2, ![N, K]⟩ .f32) (b : FVec Ideal ⟨1, ![N]⟩ .f32)
    (ht : (⟨2, ![N, K]⟩ : Shape).Transposes [1, 0] ⟨2, ![K, N]⟩)
    (g1 : (⟨1, ![N]⟩ : Shape).BroadcastsInDim ⟨2, ![1, N]⟩ ![1])
    (g2 : (⟨2, ![1, N]⟩ : Shape).BroadcastsInDim ⟨2, ![M, N]⟩ ![0, 1])
    (g0 : (⟨0, ![]⟩ : Shape).BroadcastsInDim ⟨2, ![M, N]⟩ ![]) :
    maximumf (addf (addf (Host.dotGeneral (F := Ideal) D none A (transpose ⟨2, ![K, N]⟩ [1, 0] Wl ht))
            (broadcastInDim ⟨2, ![M, N]⟩ ![0, 1] g2 (broadcastInDim ⟨2, ![1, N]⟩ ![1] g1 b)))
          (Host.dotGeneral (F := Ideal) D none X (transpose ⟨2, ![K, N]⟩ [1, 0] Wr ht)))
        (broadcastInDim ⟨2, ![M, N]⟩ ![] g0 (constant (F := Ideal) ⟨0, ![]⟩ .f32 0x00000000#32))
      = combRelu A X Wl Wr (row b) := by
  rw [hostRelu, hostComb D h1 h2 h3 h4 h5 h6]
  rfl

theorem vecHead (Y : FVec Ideal ⟨2, ![M, K]⟩ .f32) (W : FVec Ideal ⟨2, ![N, K]⟩ .f32) (b : FVec Ideal ⟨1, ![N]⟩ .f32)
    (hlt : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩) :
    addf (matmul (F := Ideal) D none (truncf .bf16 Y hlt) (transpose ⟨2, ![K, N]⟩ [1, 0] (truncf .bf16 W hlt) ht)
          (constant ⟨2, ![M, N]⟩ .f32 0x00000000#32)) (broadcastTo ⟨2, ![M, N]⟩ (shapeCast ⟨2, ![1, N]⟩ b hc) hb)
      = head Y W (row b) := by
  rw [vecMatT D h1 h2 h3 h4 h5 h6, vecRowBias]
  rfl

theorem hostHead (Y : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩)
    (g1 : (⟨1, ![N]⟩ : Shape).BroadcastsInDim ⟨2, ![1, N]⟩ ![1])
    (g2 : (⟨2, ![1, N]⟩ : Shape).BroadcastsInDim ⟨2, ![M, N]⟩ ![0, 1]) :
    addf (Host.dotGeneral (F := Ideal) D none Y (transpose ⟨2, ![K, N]⟩ [1, 0] W ht))
          (broadcastInDim ⟨2, ![M, N]⟩ ![0, 1] g2 (broadcastInDim ⟨2, ![1, N]⟩ ![1] g1 b))
      = head Y W (row b) := by
  rw [hostMatT D h1 h2 h3 h4 h5 h6, hostRowBias]
  rfl

end Forms

/-- The vector unit's fused last step: the combination, narrowed to half precision (no change on the extended reals),
    through the final linear map. -/
theorem vecHeadComb {M K N P : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (D' : DotDims ⟨2, ![M, N]⟩ ⟨2, ![N, P]⟩ ⟨2, ![M, P]⟩)
    (k1 : D'.lhsContracting = [1]) (k2 : D'.rhsContracting = [0]) (k3 : D'.lhsNonContracting = [0])
    (k4 : D'.rhsNonContracting = [1]) (k5 : D'.lhsBatch = []) (k6 : D'.rhsBatch = [])
    (A X : FVec Ideal ⟨2, ![M, K]⟩ .f32) (Wl Wr : FVec Ideal ⟨2, ![N, K]⟩ .f32) (b : FVec Ideal ⟨1, ![N]⟩ .f32)
    (Wo : FVec Ideal ⟨2, ![P, N]⟩ .f32) (bo : FVec Ideal ⟨1, ![P]⟩ .f32)
    (hlt : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (ht' : (⟨2, ![P, N]⟩ : Shape).Transposes [1, 0] ⟨2, ![N, P]⟩)
    (hc' : (⟨1, ![P]⟩ : Shape).ShapeCasts ⟨2, ![1, P]⟩) (hb' : (⟨2, ![1, P]⟩ : Shape).Broadcasts ⟨2, ![M, P]⟩) :
    addf (matmul (F := Ideal) D' none
          (truncf .bf16 (addf (addf (matmul (F := Ideal) D none (truncf .bf16 A hlt)
                  (transpose ⟨2, ![K, N]⟩ [1, 0] (truncf .bf16 Wl hlt) ht) (constant ⟨2, ![M, N]⟩ .f32 0x00000000#32))
                (broadcastTo ⟨2, ![M, N]⟩ (shapeCast ⟨2, ![1, N]⟩ b hc) hb))
              (matmul (F := Ideal) D none (truncf .bf16 X hlt)
                  (transpose ⟨2, ![K, N]⟩ [1, 0] (truncf .bf16 Wr hlt) ht) (constant ⟨2, ![M, N]⟩ .f32 0x00000000#32))) hlt)
          (transpose ⟨2, ![N, P]⟩ [1, 0] (truncf .bf16 Wo hlt) ht') (constant ⟨2, ![M, P]⟩ .f32 0x00000000#32))
        (broadcastTo ⟨2, ![M, P]⟩ (shapeCast ⟨2, ![1, P]⟩ bo hc') hb')
      = head (comb A X Wl Wr (row b)) Wo (row bo) := by
  rw [vecComb D h1 h2 h3 h4 h5 h6]
  exact vecHead D' k1 k2 k3 k4 k5 k6 (comb A X Wl Wr (row b)) Wo bo hlt ht' hc' hb'

/-! ## A block of rows of a layer is the layer of the blocks

In each lemma `j` is an index inside a block of `bs` rows, the `r`-th, and `i` the index of the whole array it sits at:
row `r · bs + (j 0)`, the same column. The left operands' blocks hold the same rows of the whole operands; the weights
and the bias are the whole ones. -/

/-- The index of the whole array that a block's index sits at, by its two coordinates. -/
theorem idx_of_block {M bs N : ℕ} (r : ℕ) (p : Fin bs) (q : Fin N) (hp : r * bs + p.val < M)
    (i : (⟨2, ![M, N]⟩ : Shape).Idx) (hi0 : (i 0).val = r * bs + p.val) (hi1 : (i 1).val = q.val) :
    i = ix2 (⟨r * bs + p.val, hp⟩ : Fin M) q := by
  funext a; apply Fin.ext
  match a with
  | ⟨0, _⟩ => exact hi0
  | ⟨1, _⟩ => exact hi1

theorem proj_block {M bs K N : ℕ} (X : Mat M K) (x0 : Mat bs K) (W x1 : Mat N K) (b x2 : Mat 1 N) (r : ℕ)
    (hr : ∀ p : Fin bs, r * bs + p.val < M)
    (h0 : ∀ (p : Fin bs) (k : Fin K), x0 (ix2 p k) = X (ix2 ⟨r * bs + p.val, hr p⟩ k))
    (h1 : x1 = W) (h2 : x2 = b)
    (j : (⟨2, ![bs, N]⟩ : Shape).Idx) (i : (⟨2, ![M, N]⟩ : Shape).Idx)
    (hi0 : (i 0).val = r * bs + (j 0).val) (hi1 : (i 1).val = (j 1).val) :
    proj x0 x1 x2 j = proj X W b i := by
  subst h1 h2
  obtain ⟨p, q, rfl⟩ : ∃ (p : Fin bs) (q : Fin N), j = ix2 p q := ⟨j 0, j 1, eq_ix2 j⟩
  rw [idx_of_block r p q (hr p) i hi0 hi1]
  exact proj_rows X x0 x1 x2 _ p (h0 p) q

theorem combRelu_block {M bs K N : ℕ} (A X : Mat M K) (x0 x1 : Mat bs K) (Wl Wr x2 x4 : Mat N K) (b x3 : Mat 1 N) (r : ℕ)
    (hr : ∀ p : Fin bs, r * bs + p.val < M)
    (h0 : ∀ (p : Fin bs) (k : Fin K), x0 (ix2 p k) = A (ix2 ⟨r * bs + p.val, hr p⟩ k))
    (h1 : ∀ (p : Fin bs) (k : Fin K), x1 (ix2 p k) = X (ix2 ⟨r * bs + p.val, hr p⟩ k))
    (h2 : x2 = Wl) (h4 : x4 = Wr) (h3 : x3 = b)
    (j : (⟨2, ![bs, N]⟩ : Shape).Idx) (i : (⟨2, ![M, N]⟩ : Shape).Idx)
    (hi0 : (i 0).val = r * bs + (j 0).val) (hi1 : (i 1).val = (j 1).val) :
    combRelu x0 x1 x2 x4 x3 j = combRelu A X Wl Wr b i := by
  subst h2 h4 h3
  obtain ⟨p, q, rfl⟩ : ∃ (p : Fin bs) (q : Fin N), j = ix2 p q := ⟨j 0, j 1, eq_ix2 j⟩
  rw [idx_of_block r p q (hr p) i hi0 hi1]
  exact combRelu_rows A X x0 x1 x2 x4 x3 _ p (h0 p) (h1 p) q

/-- The final linear map after the (unrectified) combination, on a block of rows. -/
theorem headComb_block {M bs K N P : ℕ} (A X : Mat M K) (x0 x1 : Mat bs K) (Wl Wr x2 x4 : Mat N K) (b x3 : Mat 1 N)
    (Wo x5 : Mat P N) (bo x6 : Mat 1 P) (r : ℕ)
    (hr : ∀ p : Fin bs, r * bs + p.val < M)
    (h0 : ∀ (p : Fin bs) (k : Fin K), x0 (ix2 p k) = A (ix2 ⟨r * bs + p.val, hr p⟩ k))
    (h1 : ∀ (p : Fin bs) (k : Fin K), x1 (ix2 p k) = X (ix2 ⟨r * bs + p.val, hr p⟩ k))
    (h2 : x2 = Wl) (h4 : x4 = Wr) (h3 : x3 = b) (h5 : x5 = Wo) (h6 : x6 = bo)
    (j : (⟨2, ![bs, P]⟩ : Shape).Idx) (i : (⟨2, ![M, P]⟩ : Shape).Idx)
    (hi0 : (i 0).val = r * bs + (j 0).val) (hi1 : (i 1).val = (j 1).val) :
    head (comb x0 x1 x2 x4 x3) x5 x6 j = head (comb A X Wl Wr b) Wo bo i := by
  subst h2 h4 h3 h5 h6
  obtain ⟨p, q, rfl⟩ : ∃ (p : Fin bs) (q : Fin P), j = ix2 p q := ⟨j 0, j 1, eq_ix2 j⟩
  rw [idx_of_block r p q (hr p) i hi0 hi1]
  exact head_rows (comb A X x2 x4 x3) (comb x0 x1 x2 x4 x3) x5 x6 _ p
    (fun k => comb_rows A X x0 x1 x2 x4 x3 _ p (h0 p) (h1 p) k) q

/-! ## Zero padding of the last layer's weights

The last layer may be computed with `P' ≥ P` output columns, its weight rows and bias entries beyond the first `P` being
padding: the first `P` columns of the result do not see the padding. -/

theorem head_cols {M K P P' : ℕ} (Y : Mat M K) (W : Mat P K) (W' : Mat P' K) (b : Mat 1 P) (b' : Mat 1 P')
    (p : Fin M) (q : Fin P) (q' : Fin P') (hW : ∀ k, W' (ix2 q' k) = W (ix2 q k))
    (hb : b' (ix2 (0 : Fin 1) q') = b (ix2 (0 : Fin 1) q)) :
    head Y W' b' (ix2 p q') = head Y W b (ix2 p q) := by
  simp only [head_apply, hW, hb]

end Cert.SageT

end
-- ==== Proof.Region0.lean ====
/-
  The first grid region: the article features' input projection.

  The region cuts the [100000, 300] feature array into 20 blocks of 5000 rows; at each point it computes, from the
  point's block of rows, the whole [64, 300] weight array and the bias vector, the block of rows
  `max (X Wᵀ + b, 0)` and writes it to the same rows of the result. The blocks tile the result, and a row of the projection
  depends on the same row of the features only: the result array ends as the projection of the whole feature array,
  whatever the buffers held when the region was entered.
-/
import proofs.«125365_j87960930222107_1_alg».proof.Proof.Gen.KernelIdeal.Frame
import proofs.«125365_j87960930222107_1_alg».proof.Proof.LibSageT

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.SageT

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the projection of its three loaded blocks. -/
theorem payload (v0 : Vec Ideal S5000x300 .f32) (v2 : Vec Ideal S64x300 .f32) (v6 : Vec Ideal S64 .f32) :
    k0_pay1 (F := Ideal) v0 v2 v6 = proj v0 v2 (row v6) := by
  unfold k0_pay1
  exact vecProj dot_S5000x300_S300x64_S5000x64_1_0_0_1_n_n rfl rfl rfl rfl rfl rfl v0 v2 v6 _ _ _ _

/-- The printed index maps over the grid: the feature window and the result window move together along the rows, the
    weight and bias windows stay at the origin, and the row-block index is the point's number. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 19 :=
  (by decide +kernel : ∀ t : Fin grid0.N, _)

/-- Every block of rows is some point's. -/
theorem idx_onto : ∀ q : Fin 20, ∃ t : Fin cfg0.N, win0_3.index t = ![q.val, 0] :=
  (by decide +kernel : ∀ q : Fin 20, ∃ t : Fin grid0.N, win0_3.index t = ![q.val, 0])

/-- What point `t` writes back is block `t` of the projection of the whole arrays. -/
theorem flushed_eq (c : Dev nD) (t : Fin cfg0.N) :
    (dat0 V c).flushed 3 t = ((cfg0.win 3).blk t).view.read (Elt Ideal)
      (proj (V c main_arg0) (V c main_arg4) (row (V c main_arg5))) := by
  show (cfg0.win 3).cut (grid0.coords t) ((dat0 V c).after 3 t) = _
  rw [after0_3]
  unfold out0_3
  rw [View.canon_unit_zero hz2]
  simp only [View.ld_unit_zero (S := S5000x300) hz2, View.ld_unit_zero (S := S64x300) hz2, View.ld_unit_zero (S := S64) hz1]
  rw [payload]
  obtain ⟨e0, e1, e2, e3, e4, e5, e6⟩ := idx_facts t
  funext j
  show proj (iblk0 V c 0 t) (iblk0 V c 1 t) (row (iblk0 V c 2 t)) j
    = proj (V c main_arg0) (V c main_arg4) (row (V c main_arg5)) (((cfg0.win 3).blk t).view.emb j)
  refine proj_block (V c main_arg0) (iblk0 V c 0 t) (V c main_arg4) (iblk0 V c 1 t) (row (V c main_arg5))
    (row (iblk0 V c 2 t)) (win0_3.index t (0 : Fin 2)) (fun p => by have := p.isLt; omega) ?_ ?_ ?_ j _ ?_ ?_
  · intro p k
    show V c main_arg0 (((cfg0.win 0).blk t).view.emb (ix2 p k)) = V c main_arg0 (ix2 _ k)
    refine congrArg (V c main_arg0) (funext fun a => Fin.ext ?_)
    match a with
    | ⟨0, _⟩ => show win0_0.index t (0 : Fin 2) * 5000 + 1 * p.val = win0_3.index t (0 : Fin 2) * 5000 + p.val; omega
    | ⟨1, _⟩ => show win0_0.index t (1 : Fin 2) * 300 + 1 * k.val = k.val; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 64 + 1 * (y 0).val = (y 0).val; omega
    | ⟨1, _⟩ => show win0_1.index t (1 : Fin 2) * 300 + 1 * (y 1).val = (y 1).val; omega
  · refine congrArg row (funext fun y => ?_)
    show V c main_arg5 (((cfg0.win 2).blk t).view.emb y) = V c main_arg5 y
    refine congrArg (V c main_arg5) (funext fun a => Fin.ext ?_)
    match a with
    | ⟨0, _⟩ => show win0_2.index t (0 : Fin 1) * 64 + 1 * (y 0).val = (y 0).val; omega
  · show win0_3.index t (0 : Fin 2) * 5000 + 1 * (j 0).val = win0_3.index t (0 : Fin 2) * 5000 + (j 0).val; omega
  · show win0_3.index t (1 : Fin 2) * 64 + 1 * (j 1).val = (j 1).val; omega

/-- An index of the result is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v0).slice (win0_3.rect t)).set ↔ _
  rw [View.set_slice_whole, Rect.mem_set_unit]
  exact Iff.rfl

/-- Every index of the result lies in the block of the point that handles its rows. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the region: the projection of the arrays the region found. -/
theorem final (c : Dev nD) :
    (dat0 V c).arrAt 3 cfg0.N = proj (V c main_arg0) (V c main_arg4) (row (V c main_arg5)) :=
  (dat0 V c).arrAt_eq_of_cover 3 _ (fun t _ => flushed_eq V c t) (cover)

end Cert.KernelIdeal.Region0

end
-- ==== Proof.Region1.lean ====
/-
  The second grid region: the user features' input projection.

  The region cuts the [100000, 64] feature array into 10 blocks of 10000 rows; at each point it computes, from the
  point's block of rows, the whole [64, 64] weight array and the bias vector, the block of rows
  `max (X Wᵀ + b, 0)` and writes it to the same rows of the result. The blocks tile the result, and a row of the projection
  depends on the same row of the features only: the result array ends as the projection of the whole feature array,
  whatever the buffers held when the region was entered.
-/
import proofs.«125365_j87960930222107_1_alg».proof.Proof.Gen.KernelIdeal.Frame
import proofs.«125365_j87960930222107_1_alg».proof.Proof.LibSageT

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.SageT

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the projection of its three loaded blocks. -/
theorem payload (v0 : Vec Ideal S10000x64 .f32) (v2 : Vec Ideal S64x64 .f32) (v6 : Vec Ideal S64 .f32) :
    k1_pay1 (F := Ideal) v0 v2 v6 = proj v0 v2 (row v6) := by
  unfold k1_pay1
  exact vecProj dot_S10000x64_S64x64_S10000x64_1_0_0_1_n_n rfl rfl rfl rfl rfl rfl v0 v2 v6 _ _ _ _

/-- The printed index maps over the grid: the feature window and the result window move together along the rows, the
    weight and bias windows stay at the origin, and the row-block index is the point's number. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 9 :=
  (by decide +kernel : ∀ t : Fin grid1.N, _)

/-- Every block of rows is some point's. -/
theorem idx_onto : ∀ q : Fin 10, ∃ t : Fin cfg1.N, win1_3.index t = ![q.val, 0] :=
  (by decide +kernel : ∀ q : Fin 10, ∃ t : Fin grid1.N, win1_3.index t = ![q.val, 0])

/-- What point `t` writes back is block `t` of the projection of the whole arrays. -/
theorem flushed_eq (c : Dev nD) (t : Fin cfg1.N) :
    (dat1 V c).flushed 3 t = ((cfg1.win 3).blk t).view.read (Elt Ideal)
      (proj (V c main_arg1) (V c main_arg6) (row (V c main_arg7))) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64x64) hz2, View.ld_unit_zero (S := S64) hz1]
  rw [payload]
  obtain ⟨e0, e1, e2, e3, e4, e5, e6⟩ := idx_facts t
  funext j
  show proj (iblk1 V c 0 t) (iblk1 V c 1 t) (row (iblk1 V c 2 t)) j
    = proj (V c main_arg1) (V c main_arg6) (row (V c main_arg7)) (((cfg1.win 3).blk t).view.emb j)
  refine proj_block (V c main_arg1) (iblk1 V c 0 t) (V c main_arg6) (iblk1 V c 1 t) (row (V c main_arg7))
    (row (iblk1 V c 2 t)) (win1_3.index t (0 : Fin 2)) (fun p => by have := p.isLt; omega) ?_ ?_ ?_ j _ ?_ ?_
  · intro p k
    show V c main_arg1 (((cfg1.win 0).blk t).view.emb (ix2 p k)) = V c main_arg1 (ix2 _ k)
    refine congrArg (V c main_arg1) (funext fun a => Fin.ext ?_)
    match a with
    | ⟨0, _⟩ => show win1_0.index t (0 : Fin 2) * 10000 + 1 * p.val = win1_3.index t (0 : Fin 2) * 10000 + p.val; omega
    | ⟨1, _⟩ => show win1_0.index t (1 : Fin 2) * 64 + 1 * k.val = k.val; omega
  · funext y
    show V c main_arg6 (((cfg1.win 1).blk t).view.emb y) = V c main_arg6 y
    refine congrArg (V c main_arg6) (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · refine congrArg row (funext fun y => ?_)
    show V c main_arg7 (((cfg1.win 2).blk t).view.emb y) = V c main_arg7 y
    refine congrArg (V c main_arg7) (funext fun a => Fin.ext ?_)
    match a with
    | ⟨0, _⟩ => show win1_2.index t (0 : Fin 1) * 64 + 1 * (y 0).val = (y 0).val; omega
  · show win1_3.index t (0 : Fin 2) * 10000 + 1 * (j 0).val = win1_3.index t (0 : Fin 2) * 10000 + (j 0).val; omega
  · show win1_3.index t (1 : Fin 2) * 64 + 1 * (j 1).val = (j 1).val; omega

/-- An index of the result is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v1).slice (win1_3.rect t)).set ↔ _
  rw [View.set_slice_whole, Rect.mem_set_unit]
  exact Iff.rfl

/-- Every index of the result lies in the block of the point that handles its rows. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The result array after the region: the projection of the arrays the region found. -/
theorem final (c : Dev nD) :
    (dat1 V c).arrAt 3 cfg1.N = proj (V c main_arg1) (V c main_arg6) (row (V c main_arg7)) :=
  (dat1 V c).arrAt_eq_of_cover 3 _ (fun t _ => flushed_eq V c t) (cover)

end Cert.KernelIdeal.Region1

end
-- ==== Proof.Region2.lean ====
/-
  The third grid region: the articles' first graph convolution.

  The region cuts two [100000, 64] arrays — the users' features averaged over each article's incoming edges and the articles' own projected features — into 10 blocks of 10000 rows;
  at each point it computes, from the point's two blocks of rows, the two whole [64, 64] weight arrays and the bias vector,
  the block of rows `max ((A Wlᵀ + b) + X Wrᵀ, 0)` and writes it to the same rows of the result. The blocks tile the
  result, and a row of the combination depends on the same row of `A` and of `X` only: the result array ends as the
  rectified combination of the whole arrays the region found, whatever they are.
-/
import proofs.«125365_j87960930222107_1_alg».proof.Proof.Gen.KernelIdeal.Frame
import proofs.«125365_j87960930222107_1_alg».proof.Proof.LibSageT

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.SageT

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the rectified combination of its five loaded blocks (a cast of an array to its own shape
    changes nothing). -/
theorem payload (v0 v3 : Vec Ideal S10000x64 .f32) (v6 v8 : Vec Ideal S64x64 .f32) (v12 : Vec Ideal S64 .f32) :
    k2_pay1 (F := Ideal) v0 v3 v6 v8 v12 = combRelu v0 v3 v6 v8 (row v12) := by
  unfold k2_pay1
  simp only [shapeCast_self]
  exact vecCombRelu dot_S10000x64_S64x64_S10000x64_1_0_0_1_n_n rfl rfl rfl rfl rfl rfl v0 v3 v6 v8 v12 _ _ _ _

/-- The printed index maps over the grid: the two row-blocked input windows and the result window move together along
    the rows, the weight and bias windows stay at the origin, and the row-block index is the point's number. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (1 : Fin 2) = 0 ∧ win2_5.index t (0 : Fin 2) ≤ 9 :=
  (by decide +kernel : ∀ t : Fin grid2.N, _)

/-- Every block of rows is some point's. -/
theorem idx_onto : ∀ q : Fin 10, ∃ t : Fin cfg2.N, win2_5.index t = ![q.val, 0] :=
  (by decide +kernel : ∀ q : Fin 10, ∃ t : Fin grid2.N, win2_5.index t = ![q.val, 0])

/-- What point `t` writes back is block `t` of the rectified combination of the whole arrays. -/
theorem flushed_eq (c : Dev nD) (t : Fin cfg2.N) :
    (dat2 V c).flushed 5 t = ((cfg2.win 5).blk t).view.read (Elt Ideal)
      (combRelu (V c main_v24) (V c main_v0) (V c main_arg8) (V c main_arg10) (row (V c main_arg9))) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S64x64) hz2, View.ld_unit_zero (S := S64) hz1]
  rw [payload]
  obtain ⟨e0, e1, e2, e3, e4, e5, e6, e7, e8, e9, e10⟩ := idx_facts t
  funext j
  show combRelu (iblk2 V c 0 t) (iblk2 V c 1 t) (iblk2 V c 2 t) (iblk2 V c 4 t) (row (iblk2 V c 3 t)) j
    = combRelu (V c main_v24) (V c main_v0) (V c main_arg8) (V c main_arg10) (row (V c main_arg9)) (((cfg2.win 5).blk t).view.emb j)
  refine combRelu_block (V c main_v24) (V c main_v0) (iblk2 V c 0 t) (iblk2 V c 1 t) (V c main_arg8) (V c main_arg10)
    (iblk2 V c 2 t) (iblk2 V c 4 t) (row (V c main_arg9)) (row (iblk2 V c 3 t)) (win2_5.index t (0 : Fin 2))
    (fun p => by have := p.isLt; omega) ?_ ?_ ?_ ?_ ?_ j _ ?_ ?_
  · intro p k
    show V c main_v24 (((cfg2.win 0).blk t).view.emb (ix2 p k)) = V c main_v24 (ix2 _ k)
    refine congrArg (V c main_v24) (funext fun a => Fin.ext ?_)
    match a with
    | ⟨0, _⟩ => show win2_0.index t (0 : Fin 2) * 10000 + 1 * p.val = win2_5.index t (0 : Fin 2) * 10000 + p.val; omega
    | ⟨1, _⟩ => show win2_0.index t (1 : Fin 2) * 64 + 1 * k.val = k.val; omega
  · intro p k
    show V c main_v0 (((cfg2.win 1).blk t).view.emb (ix2 p k)) = V c main_v0 (ix2 _ k)
    refine congrArg (V c main_v0) (funext fun a => Fin.ext ?_)
    match a with
    | ⟨0, _⟩ => show win2_1.index t (0 : Fin 2) * 10000 + 1 * p.val = win2_5.index t (0 : Fin 2) * 10000 + p.val; omega
    | ⟨1, _⟩ => show win2_1.index t (1 : Fin 2) * 64 + 1 * k.val = k.val; omega
  · funext y
    show V c main_arg8 (((cfg2.win 2).blk t).view.emb y) = V c main_arg8 y
    refine congrArg (V c main_arg8) (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  · funext y
    show V c main_arg10 (((cfg2.win 4).blk t).view.emb y) = V c main_arg10 y
    refine congrArg (V c main_arg10) (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  · refine congrArg row (funext fun y => ?_)
    show V c main_arg9 (((cfg2.win 3).blk t).view.emb y) = V c main_arg9 y
    refine congrArg (V c main_arg9) (funext fun a => Fin.ext ?_)
    match a with
    | ⟨0, _⟩ => show win2_3.index t (0 : Fin 1) * 64 + 1 * (y 0).val = (y 0).val; omega
  · show win2_5.index t (0 : Fin 2) * 10000 + 1 * (j 0).val = win2_5.index t (0 : Fin 2) * 10000 + (j 0).val; omega
  · show win2_5.index t (1 : Fin 2) * 64 + 1 * (j 1).val = (j 1).val; omega

/-- An index of the result is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v25).slice (win2_5.rect t)).set ↔ _
  rw [View.set_slice_whole, Rect.mem_set_unit]
  exact Iff.rfl

/-- Every index of the result lies in the block of the point that handles its rows. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The result array after the region: the rectified combination of the arrays the region found. -/
theorem final (c : Dev nD) :
    (dat2 V c).arrAt 5 cfg2.N
      = combRelu (V c main_v24) (V c main_v0) (V c main_arg8) (V c main_arg10) (row (V c main_arg9)) :=
  (dat2 V c).arrAt_eq_of_cover 5 _ (fun t _ => flushed_eq V c t) (cover)

end Cert.KernelIdeal.Region2

end
-- ==== Proof.Region3.lean ====
/-
  The fourth grid region: the users' first graph convolution.

  The region cuts two [100000, 64] arrays — the articles' features averaged over each user's incoming edges and the users' own projected features — into 10 blocks of 10000 rows;
  at each point it computes, from the point's two blocks of rows, the two whole [64, 64] weight arrays and the bias vector,
  the block of rows `max ((A Wlᵀ + b) + X Wrᵀ, 0)` and writes it to the same rows of the result. The blocks tile the
  result, and a row of the combination depends on the same row of `A` and of `X` only: the result array ends as the
  rectified combination of the whole arrays the region found, whatever they are.
-/
import proofs.«125365_j87960930222107_1_alg».proof.Proof.Gen.KernelIdeal.Frame
import proofs.«125365_j87960930222107_1_alg».proof.Proof.LibSageT

set_option maxRecDepth 16384

noncomputable section

namespace Cert.KernelIdeal.Region3

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.SageT

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the rectified combination of its five loaded blocks (a cast of an array to its own shape
    changes nothing). -/
theorem payload (v0 v3 : Vec Ideal S10000x64 .f32) (v6 v8 : Vec Ideal S64x64 .f32) (v12 : Vec Ideal S64 .f32) :
    k3_pay1 (F := Ideal) v0 v3 v6 v8 v12 = combRelu v0 v3 v6 v8 (row v12) := by
  unfold k3_pay1
  simp only [shapeCast_self]
  exact vecCombRelu dot_S10000x64_S64x64_S10000x64_1_0_0_1_n_n rfl rfl rfl rfl rfl rfl v0 v3 v6 v8 v12 _ _ _ _

/-- The printed index maps over the grid: the two row-blocked input windows and the result window move together along
    the rows, the weight and bias windows stay at the origin, and the row-block index is the point's number. -/
theorem idx_facts : ∀ t : Fin cfg3.N, win3_0.index t (0 : Fin 2) = win3_5.index t (0 : Fin 2)
    ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every block of rows is some point's. -/
theorem idx_onto : ∀ q : Fin 10, ∃ t : Fin cfg3.N, win3_5.index t = ![q.val, 0] :=
  (by decide +kernel : ∀ q : Fin 10, ∃ t : Fin grid3.N, win3_5.index t = ![q.val, 0])

/-- What point `t` writes back is block `t` of the rectified combination of the whole arrays. -/
theorem flushed_eq (c : Dev nD) (t : Fin cfg3.N) :
    (dat3 V c).flushed 5 t = ((cfg3.win 5).blk t).view.read (Elt Ideal)
      (combRelu (V c main_v48) (V c main_v1) (V c main_arg11) (V c main_arg13) (row (V c main_arg12))) := by
  show (cfg3.win 5).cut (grid3.coords t) ((dat3 V c).after 5 t) = _
  rw [after3_5]
  unfold out3_5
  rw [View.canon_unit_zero hz2]
  simp only [View.ld_unit_zero (S := S10000x64) hz2, View.ld_unit_zero (S := S64x64) hz2, View.ld_unit_zero (S := S64) hz1]
  rw [payload]
  obtain ⟨e0, e1, e2, e3, e4, e5, e6, e7, e8, e9, e10⟩ := idx_facts t
  funext j
  show combRelu (iblk3 V c 0 t) (iblk3 V c 1 t) (iblk3 V c 2 t) (iblk3 V c 4 t) (row (iblk3 V c 3 t)) j
    = combRelu (V c main_v48) (V c main_v1) (V c main_arg11) (V c main_arg13) (row (V c main_arg12)) (((cfg3.win 5).blk t).view.emb j)
  refine combRelu_block (V c main_v48) (V c main_v1) (iblk3 V c 0 t) (iblk3 V c 1 t) (V c main_arg11) (V c main_arg13)
    (iblk3 V c 2 t) (iblk3 V c 4 t) (row (V c main_arg12)) (row (iblk3 V c 3 t)) (win3_5.index t (0 : Fin 2))
    (fun p => by have := p.isLt; omega) ?_ ?_ ?_ ?_ ?_ j _ ?_ ?_
  · intro p k
    show V c main_v48 (((cfg3.win 0).blk t).view.emb (ix2 p k)) = V c main_v48 (ix2 _ k)
    refine congrArg (V c main_v48) (funext fun a => Fin.ext ?_)
    match a with
    | ⟨0, _⟩ => show win3_0.index t (0 : Fin 2) * 10000 + 1 * p.val = win3_5.index t (0 : Fin 2) * 10000 + p.val; omega
    | ⟨1, _⟩ => show win3_0.index t (1 : Fin 2) * 64 + 1 * k.val = k.val; omega
  · intro p k
    show V c main_v1 (((cfg3.win 1).blk t).view.emb (ix2 p k)) = V c main_v1 (ix2 _ k)
    refine congrArg (V c main_v1) (funext fun a => Fin.ext ?_)
    match a with
    | ⟨0, _⟩ => show win3_1.index t (0 : Fin 2) * 10000 + 1 * p.val = win3_5.index t (0 : Fin 2) * 10000 + p.val; omega
    | ⟨1, _⟩ => show win3_1.index t (1 : Fin 2) * 64 + 1 * k.val = k.val; omega
  · funext y
    show V c main_arg11 (((cfg3.win 2).blk t).view.emb y) = V c main_arg11 y
    refine congrArg (V c main_arg11) (funext fun a => Fin.ext ?_)
    match a with
    | ⟨0, _⟩ => show win3_2.index t (0 : Fin 2) * 64 + 1 * (y 0).val = (y 0).val; omega
    | ⟨1, _⟩ => show win3_2.index t (1 : Fin 2) * 64 + 1 * (y 1).val = (y 1).val; omega
  · funext y
    show V c main_arg13 (((cfg3.win 4).blk t).view.emb y) = V c main_arg13 y
    refine congrArg (V c main_arg13) (funext fun a => Fin.ext ?_)
    match a with
    | ⟨0, _⟩ => show win3_4.index t (0 : Fin 2) * 64 + 1 * (y 0).val = (y 0).val; omega
    | ⟨1, _⟩ => show win3_4.index t (1 : Fin 2) * 64 + 1 * (y 1).val = (y 1).val; omega
  · refine congrArg row (funext fun y => ?_)
    show V c main_arg12 (((cfg3.win 3).blk t).view.emb y) = V c main_arg12 y
    refine congrArg (V c main_arg12) (funext fun a => Fin.ext ?_)
    match a with
    | ⟨0, _⟩ => show win3_3.index t (0 : Fin 1) * 64 + 1 * (y 0).val = (y 0).val; omega
  · show win3_5.index t (0 : Fin 2) * 10000 + 1 * (j 0).val = win3_5.index t (0 : Fin 2) * 10000 + (j 0).val; omega
  · show win3_5.index t (1 : Fin 2) * 64 + 1 * (j 1).val = (j 1).val; omega

/-- An index of the result is in point `t`'s block iff each coordinate is in the block's range on its axis. -/
theorem mem_blk (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v49).slice (win3_5.rect t)).set ↔ _
  rw [View.set_slice_whole, Rect.mem_set_unit]
  exact Iff.rfl

/-- Every index of the result lies in the block of the point that handles its rows. -/
theorem cover (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ := idx_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- The result array after the region: the rectified combination of the arrays the region found. -/
theorem final (c : Dev nD) :
    (dat3 V c).arrAt 5 cfg3.N
      = combRelu (V c main_v48) (V c main_v1) (V c main_arg11) (V c main_arg13) (row (V c main_arg12)) :=
  (dat3 V c).arrAt_eq_of_cover 5 _ (fun t _ => flushed_eq V c t) (cover)

end Cert.KernelIdeal.Region3

end
-- ==== Proof.Region4.lean ====
/-
  The fifth grid region: the articles' second graph convolution fused with the output map.

  The region cuts two [100000, 64] arrays — the users' second-layer features averaged over each article's incoming
  edges, and the articles' first-layer features — into 20 blocks of 5000 rows; at each point it computes, from the point's
  two blocks of rows, the two whole [64, 64] weight arrays with their bias and the whole [128, 64] output weight array
  with its 128 biases, the block of rows `((A Wlᵀ + b) + X Wrᵀ) Woᵀ + bo` — no rectifier between the two steps — and
  writes it to the same rows of the [100000, 128] result. The blocks tile the result, and a row of it depends on the same
  row of `A` and of `X` only: the result array ends as that function of the whole arrays the region found.
-/
import proofs.«125365_j87960930222107_1_alg».proof.Proof.Gen.KernelIdeal.Frame
import proofs.«125365_j87960930222107_1_alg».proof.Proof.LibSageT

set_option maxRecDepth 16384

noncomputable section

namespace Cert.KernelIdeal.Region4

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.SageT

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic is the output map of the combination of its loaded blocks (a cast of an array to its own
    shape changes nothing, nor does narrowing the combination to half precision). -/
theorem payload (v0 v3 : Vec Ideal S5000x64 .f32) (v6 v8 : Vec Ideal S64x64 .f32) (v12 : Vec Ideal S64 .f32)
    (v20 : Vec Ideal S128x64 .f32) (v25 : Vec Ideal S128 .f32) :
    k4_pay1 (F := Ideal) v0 v3 v6 v8 v12 v20 v25 = head (comb v0 v3 v6 v8 (row v12)) v20 (row v25) := by
  unfold k4_pay1
  simp only [shapeCast_self]
  exact vecHeadComb dot_S5000x64_S64x64_S5000x64_1_0_0_1_n_n rfl rfl rfl rfl rfl rfl
    dot_S5000x64_S64x128_S5000x128_1_0_0_1_n_n rfl rfl rfl rfl rfl rfl v0 v3 v6 v8 v12 v20 v25 _ _ _ _ _ _ _

/-- The printed index maps over the grid: the two row-blocked input windows and the result window move together along
    the rows, every weight and bias window stays at the origin, and the row-block index is the point's number. -/
theorem idx_facts : ∀ t : Fin cfg4.N, win4_0.index t (0 : Fin 2) = win4_7.index t (0 : Fin 2)
    ∧ win4_0.index t (1 : Fin 2) = 0
    ∧ win4_1.index t (0 : Fin 2) = win4_7.index t (0 : Fin 2) ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 1) = 0
    ∧ win4_7.index t (1 : Fin 2) = 0 ∧ win4_7.index t (0 : Fin 2) ≤ 19 :=
  (by decide +kernel : ∀ t : Fin grid4.N, _)

/-- Every block of rows is some point's. -/
theorem idx_onto : ∀ q : Fin 20, ∃ t : Fin cfg4.N, win4_7.index t = ![q.val, 0] :=
  (by decide +kernel : ∀ q : Fin 20, ∃ t : Fin grid4.N, win4_7.index t = ![q.val, 0])

/-- The rows of point `t`'s block lie inside the array. -/
theorem rows_lt (t : Fin cfg4.N) (p : Fin 5000) : win4_7.index t (0 : Fin 2) * 5000 + p.val < 100000 := by
  obtain ⟨e0, e1, e2, e3, e4, e5, e6, e7, e8, e9, e10, e11, e12, e13⟩ := idx_facts t
  have := p.isLt
  omega

/-! Each input window's block at point `t`, read off the array the region found: the two row-blocked windows hold rows
`5000 t … 5000 t + 4999` of their arrays, every other window its whole array. -/

/-- The aggregated neighbourhood's block holds the point's rows of its array. -/
theorem read_agg (c : Dev nD) (t : Fin cfg4.N) (p : Fin 5000) (k : Fin 64) :
    (iblk4 V c 0 t : Mat 5000 64) (ix2 p k) = V c main_v72 (ix2 ⟨win4_7.index t (0 : Fin 2) * 5000 + p.val, rows_lt t p⟩ k) := by
  obtain ⟨e0, e1, e2, e3, e4, e5, e6, e7, e8, e9, e10, e11, e12, e13⟩ := idx_facts t
  show V c main_v72 (((cfg4.win 0).blk t).view.emb (ix2 p k)) = V c main_v72 (ix2 _ k)
  refine congrArg (V c main_v72) (funext fun a => Fin.ext ?_)
  match a with
  | ⟨0, _⟩ => show win4_0.index t (0 : Fin 2) * 5000 + 1 * p.val = win4_7.index t (0 : Fin 2) * 5000 + p.val; omega
  | ⟨1, _⟩ => show win4_0.index t (1 : Fin 2) * 64 + 1 * k.val = k.val; omega

/-- The articles' own features' block holds the point's rows of its array. -/
theorem read_own (c : Dev nD) (t : Fin cfg4.N) (p : Fin 5000) (k : Fin 64) :
    (iblk4 V c 1 t : Mat 5000 64) (ix2 p k) = V c main_v25 (ix2 ⟨win4_7.index t (0 : Fin 2) * 5000 + p.val, rows_lt t p⟩ k) := by
  obtain ⟨e0, e1, e2, e3, e4, e5, e6, e7, e8, e9, e10, e11, e12, e13⟩ := idx_facts t
  show V c main_v25 (((cfg4.win 1).blk t).view.emb (ix2 p k)) = V c main_v25 (ix2 _ k)
  refine congrArg (V c main_v25) (funext fun a => Fin.ext ?_)
  match a with
  | ⟨0, _⟩ => show win4_1.index t (0 : Fin 2) * 5000 + 1 * p.val = win4_7.index t (0 : Fin 2) * 5000 + p.val; omega
  | ⟨1, _⟩ => show win4_1.index t (1 : Fin 2) * 64 + 1 * k.val = k.val; omega

/-- The neighbourhood weight window holds its whole array. -/
theorem read_wl (c : Dev nD) (t : Fin cfg4.N) : (iblk4 V c 2 t : Mat 64 64) = V c main_arg14 := by
  obtain ⟨e0, e1, e2, e3, e4, e5, e6, e7, e8, e9, e10, e11, e12, e13⟩ := idx_facts t
  funext y
  show V c main_arg14 (((cfg4.win 2).blk t).view.emb y) = V c main_arg14 y
  refine congrArg (V c main_arg14) (funext fun a => Fin.ext ?_)
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- The own-feature weight window holds its whole array. -/
theorem read_wr (c : Dev nD) (t : Fin cfg4.N) : (iblk4 V c 4 t : Mat 64 64) = V c main_arg16 := by
  obtain ⟨e0, e1, e2, e3, e4, e5, e6, e7, e8, e9, e10, e11, e12, e13⟩ := idx_facts t
  funext y
  show V c main_arg16 (((cfg4.win 4).blk t).view.emb y) = V c main_arg16 y
  refine congrArg (V c main_arg16) (funext fun a => Fin.ext ?_)
  match a with
  | ⟨0, _⟩ => show win4_4.index t (0 : Fin 2) * 64 + 1 * (y 0).val = (y 0).val; omega
  | ⟨1, _⟩ => show win4_4.index t (1 : Fin 2) * 64 + 1 * (y 1).val = (y 1).val; omega

/-- The bias window holds its whole vector. -/
theorem read_bl (c : Dev nD) (t : Fin cfg4.N) : (iblk4 V c 3 t : Row 64) = V c main_arg15 := by
  obtain ⟨e0, e1, e2, e3, e4, e5, e6, e7, e8, e9, e10, e11, e12, e13⟩ := idx_facts t
  funext y
  show V c main_arg15 (((cfg4.win 3).blk t).view.emb y) = V c main_arg15 y
  refine congrArg (V c main_arg15) (funext fun a => Fin.ext ?_)
  match a with
  | ⟨0, _⟩ => show win4_3.index t (0 : Fin 1) * 64 + 1 * (y 0).val = (y 0).val; omega

/-- The output weight window holds its whole (padded) array. -/
theorem read_wo (c : Dev nD) (t : Fin cfg4.N) : (iblk4 V c 5 t : Mat 128 64) = V c main_v73 := by
  obtain ⟨e0, e1, e2, e3, e4, e5, e6, e7, e8, e9, e10, e11, e12, e13⟩ := idx_facts t
  funext y
  show V c main_v73 (((cfg4.win 5).blk t).view.emb y) = V c main_v73 y
  refine congrArg (V c main_v73) (funext fun a => Fin.ext ?_)
  match a with
  | ⟨0, _⟩ => show win4_5.index t (0 : Fin 2) * 128 + 1 * (y 0).val = (y 0).val; omega
  | ⟨1, _⟩ => show win4_5.index t (1 : Fin 2) * 64 + 1 * (y 1).val = (y 1).val; omega

/-- The output bias window holds its whole (padded) vector. -/
theorem read_bo (c : Dev nD) (t : Fin cfg4.N) : (iblk4 V c 6 t : Row 128) = V c main_v74 := by
  obtain ⟨e0, e1, e2, e3, e4, e5, e6, e7, e8, e9, e10, e11, e12, e13⟩ := idx_facts t
  funext y
  show V c main_v74 (((cfg4.win 6).blk t).view.emb y) = V c main_v74 y
  refine congrArg (V c main_v74) (funext fun a => Fin.ext ?_)
  match a with
  | ⟨0, _⟩ => show win4_6.index t (0 : Fin 1) * 128 + 1 * (y 0).val = (y 0).val; omega

/-- What point `t` writes back is block `t` of the fused step of the whole arrays. -/
theorem flushed_eq (c : Dev nD) (t : Fin cfg4.N) :
    (dat4 V c).flushed 7 t = ((cfg4.win 7).blk t).view.read (Elt Ideal)
      (head (comb (V c main_v72) (V c main_v25) (V c main_arg14) (V c main_arg16) (row (V c main_arg15)))
        (V c main_v73) (row (V c main_v74))) := by
  show (cfg4.win 7).cut (grid4.coords t) ((dat4 V c).after 7 t) = _
  rw [after4_7]
  unfold out4_7
  rw [View.canon_unit_zero hz2]
  simp only [View.ld_unit_zero (S := S5000x64) hz2, View.ld_unit_zero (S := S64x64) hz2, View.ld_unit_zero (S := S64) hz1,
    View.ld_unit_zero (S := S128x64) hz2, View.ld_unit_zero (S := S128) hz1]
  rw [payload]
  obtain ⟨e0, e1, e2, e3, e4, e5, e6, e7, e8, e9, e10, e11, e12, e13⟩ := idx_facts t
  funext j
  show head (comb (iblk4 V c 0 t) (iblk4 V c 1 t) (iblk4 V c 2 t) (iblk4 V c 4 t) (row (iblk4 V c 3 t)))
      (iblk4 V c 5 t) (row (iblk4 V c 6 t)) j
    = head (comb (V c main_v72) (V c main_v25) (V c main_arg14) (V c main_arg16) (row (V c main_arg15)))
      (V c main_v73) (row (V c main_v74)) (((cfg4.win 7).blk t).view.emb j)
  refine headComb_block (V c main_v72) (V c main_v25) (iblk4 V c 0 t) (iblk4 V c 1 t) (V c main_arg14) (V c main_arg16)
    (iblk4 V c 2 t) (iblk4 V c 4 t) (row (V c main_arg15)) (row (iblk4 V c 3 t)) (V c main_v73) (iblk4 V c 5 t)
    (row (V c main_v74)) (row (iblk4 V c 6 t)) (win4_7.index t (0 : Fin 2)) (rows_lt t)
    (read_agg V c t) (read_own V c t) (read_wl V c t) (read_wr V c t) (congrArg row (read_bl V c t))
    (read_wo V c t) (congrArg row (read_bo V c t)) j _ ?_ ?_
  · show win4_7.index t (0 : Fin 2) * 5000 + 1 * (j 0).val = win4_7.index t (0 : Fin 2) * 5000 + (j 0).val; omega
  · show win4_7.index t (1 : Fin 2) * 128 + 1 * (j 1).val = (j 1).val; omega

/-- An index of the result is in point `t`'s block iff each coordinate is in the block's range on its axis. -/
theorem mem_blk (t : Fin cfg4.N) (i : S100000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v75).slice (win4_7.rect t)).set ↔ _
  rw [View.set_slice_whole, Rect.mem_set_unit]
  exact Iff.rfl

/-- Every index of the result lies in the block of the point that handles its rows. -/
theorem cover (i : S100000x128.Idx) : ∃ t : Fin cfg4.N, (cfg4.win 7).flush t = true ∧ i ∈ ((cfg4.win 7).blk t).view.set := by
  have hi0 : (i 0).val < 100000 := (i 0).isLt
  have hi1 : (i 1).val < 128 := (i 1).isLt
  obtain ⟨t, ht⟩ := idx_onto ⟨(i 0).val / 5000, by omega⟩
  have q0 : win4_7.index t (0 : Fin 2) = (i 0).val / 5000 := congrFun ht 0
  have q1 : win4_7.index t (1 : Fin 2) = 0 := congrFun ht 1
  refine ⟨t, flush4_7 t, ?_⟩
  rw [mem_blk]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 128 ≤ (i 1).val ∧ (i 1).val < win4_7.index t (1 : Fin 2) * 128 + 128; omega

/-- The result array after the region: the fused step of the arrays the region found. -/
theorem final (c : Dev nD) :
    (dat4 V c).arrAt 7 cfg4.N
      = head (comb (V c main_v72) (V c main_v25) (V c main_arg14) (V c main_arg16) (row (V c main_arg15)))
          (V c main_v73) (row (V c main_v74)) :=
  (dat4 V c).arrAt_eq_of_cover 7 _ (fun t _ => flushed_eq V c t) (cover)

end Cert.KernelIdeal.Region4

end
-- ==== Proof.Aggregate.lean ====
/-
  The mean of a node array over each destination's incoming edges, as both programs spell it.

  `ei` is a [2, 1600000] integer array: row 0 the edges' source nodes, row 1 their destinations. Each source index that
  is negative has the node count 100000 added to it; row `src(e)` of the [100000, 64] array `x` is gathered for every
  edge `e` and added into row `dst(e)` of a zero array; the number of edges arriving at each node is counted the same way
  (ones added into zeros), raised to at least one, and divides the node's row. Both programs apply exactly this chain of
  operations, each to its own operand, so it is carried as one function and never opened: what matters is only that it
  is the same function on both sides.
-/
import proofs.«125365_j87960930222107_1_alg».proof.Proof.Gen.KernelIdeal

noncomputable section

namespace Cert.Aggregate

open Cert.KernelIdeal Cert.KernelIdeal.Facts₀ Idealize.ShloMosaic

variable {F : FTy → Type} [FloatOps F]

/-- The mean of `x`'s rows over each node's incoming edges `ei`. -/
def meanIn (x : (⟨S100000x64, .f32⟩ : BufTy).Contents (Elt F)) (ei : (⟨S2x1600000, .i32⟩ : BufTy).Contents (Elt F)) :
    (⟨S100000x64, .f32⟩ : BufTy).Contents (Elt F) :=
  Host.divf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x64_S1600000x1_S1600000x64_1_0_n_n_0_1_164 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x64 ![0, 1] bcast_S100000x1_S100000x64_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

end Cert.Aggregate

end
-- ==== Proof.Model.lean ====
/-
  The network both programs compute, as one function of the argument arrays on the extended reals.

  Two node types, articles and users, 100000 each; `ep` are the edges from users to articles, `eb` those from articles to
  users. Each type's features are first projected to 64 channels and rectified. A convolution step takes, for every node,
  the mean of its in-neighbours' current features, maps it through `Wl` with a bias, adds the node's own features through
  `Wr`, and rectifies. The first layer does this for both types; the second layer only for the articles, without the
  rectifier, and the result goes through the final linear map to two channels.
-/
import proofs.«125365_j87960930222107_1_alg».proof.Proof.Aggregate
import proofs.«125365_j87960930222107_1_alg».proof.Proof.LibSageT

noncomputable section

namespace Cert.Model

open Cert.KernelIdeal Idealize.ShloMosaic Cert.Dense Cert.SageT Cert.Aggregate

/-- An edge list: row 0 the sources, row 1 the destinations. -/
abbrev Edges : Type := (⟨S2x1600000, .i32⟩ : BufTy).Contents (Elt Ideal)

/-- One rectified convolution step: the in-neighbours' mean of `src` through `wl` with the bias `bl`, plus `own` through `wr`. -/
def conv (src : Mat 100000 64) (e : Edges) (own : Mat 100000 64) (wl : Mat 64 64) (bl : Row 64) (wr : Mat 64 64) :
    Mat 100000 64 :=
  combRelu (meanIn (F := Ideal) src e) own wl wr (row bl)

/-- The second-layer article features before the output map (no rectifier). -/
def last (src : Mat 100000 64) (e : Edges) (own : Mat 100000 64) (wl : Mat 64 64) (bl : Row 64) (wr : Mat 64 64) :
    Mat 100000 64 :=
  comb (meanIn (F := Ideal) src e) own wl wr (row bl)

/-- The whole network. -/
def net (xa : Mat 100000 300) (xu : Mat 100000 64) (ep eb : Edges) (wa : Mat 64 300) (ba : Row 64) (wu : Mat 64 64) (bu : Row 64)
    (wl1p : Mat 64 64) (bl1p : Row 64) (wr1p : Mat 64 64) (wl1b : Mat 64 64) (bl1b : Row 64) (wr1b : Mat 64 64)
    (wl2p : Mat 64 64) (bl2p : Row 64) (wr2p : Mat 64 64) (wo : Mat 2 64) (bo : Row 2) : Mat 100000 2 :=
  head (last (conv (proj xa wa (row ba)) eb (proj xu wu (row bu)) wl1b bl1b wr1b) ep
          (conv (proj xu wu (row bu)) ep (proj xa wa (row ba)) wl1p bl1p wr1p) wl2p bl2p wr2p)
    wo (row bo)

end Cert.Model

end
-- ==== Proof.KernelValue.lean ====
/-
  The idealized kernel's result as a function of its arguments.

  Boundary by boundary: each grid region leaves its result array at the layer function of the arrays it found
  (the region modules), each stretch of host operations leaves each buffer it writes at its operations' term of the
  buffers it read, and everything else is carried unchanged (the boundary module). Read in program order this gives the
  articles' and users' projections, the first-layer convolutions, the second-layer article features fused with the output
  map on 128 padded columns, and finally the two real columns cut out of it: the network of the model module.
-/
import proofs.«125365_j87960930222107_1_alg».proof.Proof.Boundaries
import proofs.«125365_j87960930222107_1_alg».proof.Proof.Region0
import proofs.«125365_j87960930222107_1_alg».proof.Proof.Region1
import proofs.«125365_j87960930222107_1_alg».proof.Proof.Region2
import proofs.«125365_j87960930222107_1_alg».proof.Proof.Region3
import proofs.«125365_j87960930222107_1_alg».proof.Proof.Region4
import proofs.«125365_j87960930222107_1_alg».proof.Proof.Model
import Idealize.ShloMosaic.Lib.KernelVsHost

set_option maxRecDepth 16384

noncomputable section

namespace Cert.KernelIdeal.Result

open Cert.KernelIdeal Cert.KernelIdeal.Gen Cert.KernelIdeal.Bounds
open Idealize.ShloMosaic Idealize.ShloMosaic.TcCoe Idealize.SL.Sem Idealize.ShloMosaic.ValueIdx Idealize.ShloMosaic.StableHlo
open Cert.Dense Cert.SageT Cert.Aggregate Cert.Model

variable (m : (ℓ : Loc nD τ sig) → Buf (Elt Ideal) ℓ) (ρ : Dev nD → PrngReg) (c : Dev nD)

/-- An argument array's launch contents. -/
abbrev arg (b : Ref sig .tc) : Buf (Elt Ideal) ((c : Thread nD τ).loc b) := m ((c : Thread nD τ).loc b)

/-- The articles' projected features. -/
abbrev artIn : Mat 100000 64 := proj (arg m c main_arg0) (arg m c main_arg4) (row (arg m c main_arg5))
/-- The users' projected features. -/
abbrev usrIn : Mat 100000 64 := proj (arg m c main_arg1) (arg m c main_arg6) (row (arg m c main_arg7))
/-- The articles' first-layer features. -/
abbrev art1 : Mat 100000 64 :=
  conv (usrIn m c) (arg m c main_arg2) (artIn m c) (arg m c main_arg8) (arg m c main_arg9) (arg m c main_arg10)
/-- The users' first-layer features. -/
abbrev usr1 : Mat 100000 64 :=
  conv (artIn m c) (arg m c main_arg3) (usrIn m c) (arg m c main_arg11) (arg m c main_arg12) (arg m c main_arg13)

/-! ## Through the two input projections -/

theorem w1_v0 : W1 m ρ c (Proc.devRef .tc main_v0) = artIn m c :=
  (W1_arr m ρ c 3).trans (Region0.final (V0 m ρ) c)

theorem w2_v0 : W2 m ρ c (Proc.devRef .tc main_v0) = artIn m c :=
  (keep_region1 m ρ c main_v0 (by decide)).trans (w1_v0 m ρ c)

theorem w2_v1 : W2 m ρ c (Proc.devRef .tc main_v1) = usrIn m c := by
  refine (W2_arr m ρ c 3).trans ((Region1.final (V1 m ρ) c).trans ?_)
  show proj (W1 m ρ c (Proc.devRef .tc main_arg1)) (W1 m ρ c (Proc.devRef .tc main_arg6)) (row (W1 m ρ c (Proc.devRef .tc main_arg7))) = _
  rw [args1 m ρ c main_arg1 (by decide), args1 m ρ c main_arg6 (by decide), args1 m ρ c main_arg7 (by decide)]

/-! ## The first aggregation: the users' features over the edges into articles -/

theorem w3_v24 : W3 m ρ c (Proc.devRef .tc main_v24) = meanIn (F := Ideal) (usrIn m c) (arg m c main_arg2) := by
  have e : W3 m ρ c (Proc.devRef .tc main_v24)
      = meanIn (F := Ideal) (W2 m ρ c (Proc.devRef .tc main_v1)) (W2 m ρ c (Proc.devRef .tc main_arg2)) := by
    show StableHlo.after hostOps2 (W2 m ρ c) (Proc.devRef .tc main_v24) = _
    after_results_simp <;> rfl
  rw [e, w2_v1 m ρ c, args2 m ρ c main_arg2 (by decide)]

theorem w3_v0 : W3 m ρ c (Proc.devRef .tc main_v0) = artIn m c :=
  (keep_host2 m ρ c main_v0 (by decide)).trans (w2_v0 m ρ c)

theorem w3_v1 : W3 m ρ c (Proc.devRef .tc main_v1) = usrIn m c :=
  (keep_host2 m ρ c main_v1 (by decide)).trans (w2_v1 m ρ c)

/-! ## The articles' first convolution -/

theorem w4_v25 : W4 m ρ c (Proc.devRef .tc main_v25) = art1 m c := by
  refine (W4_arr m ρ c 5).trans ((Region2.final (V3 m ρ) c).trans ?_)
  show combRelu (W3 m ρ c (Proc.devRef .tc main_v24)) (W3 m ρ c (Proc.devRef .tc main_v0))
      (W3 m ρ c (Proc.devRef .tc main_arg8)) (W3 m ρ c (Proc.devRef .tc main_arg10))
      (row (W3 m ρ c (Proc.devRef .tc main_arg9))) = _
  rw [w3_v24 m ρ c, w3_v0 m ρ c, args3 m ρ c main_arg8 (by decide), args3 m ρ c main_arg10 (by decide),
    args3 m ρ c main_arg9 (by decide)]
  rfl

theorem w4_v0 : W4 m ρ c (Proc.devRef .tc main_v0) = artIn m c :=
  (keep_region2 m ρ c main_v0 (by decide)).trans (w3_v0 m ρ c)

theorem w4_v1 : W4 m ρ c (Proc.devRef .tc main_v1) = usrIn m c :=
  (keep_region2 m ρ c main_v1 (by decide)).trans (w3_v1 m ρ c)

/-! ## The second aggregation: the articles' features over the edges into users -/

theorem w5_v48 : W5 m ρ c (Proc.devRef .tc main_v48) = meanIn (F := Ideal) (artIn m c) (arg m c main_arg3) := by
  have e : W5 m ρ c (Proc.devRef .tc main_v48)
      = meanIn (F := Ideal) (W4 m ρ c (Proc.devRef .tc main_v0)) (W4 m ρ c (Proc.devRef .tc main_arg3)) := by
    show StableHlo.after hostOps3 (W4 m ρ c) (Proc.devRef .tc main_v48) = _
    after_results_simp <;> rfl
  rw [e, w4_v0 m ρ c, args4 m ρ c main_arg3 (by decide)]

theorem w5_v1 : W5 m ρ c (Proc.devRef .tc main_v1) = usrIn m c :=
  (keep_host3 m ρ c main_v1 (by decide)).trans (w4_v1 m ρ c)

theorem w5_v25 : W5 m ρ c (Proc.devRef .tc main_v25) = art1 m c :=
  (keep_host3 m ρ c main_v25 (by decide)).trans (w4_v25 m ρ c)

/-! ## The users' first convolution -/

theorem w6_v49 : W6 m ρ c (Proc.devRef .tc main_v49) = usr1 m c := by
  refine (W6_arr m ρ c 5).trans ((Region3.final (V5 m ρ) c).trans ?_)
  show combRelu (W5 m ρ c (Proc.devRef .tc main_v48)) (W5 m ρ c (Proc.devRef .tc main_v1))
      (W5 m ρ c (Proc.devRef .tc main_arg11)) (W5 m ρ c (Proc.devRef .tc main_arg13))
      (row (W5 m ρ c (Proc.devRef .tc main_arg12))) = _
  rw [w5_v48 m ρ c, w5_v1 m ρ c, args5 m ρ c main_arg11 (by decide), args5 m ρ c main_arg13 (by decide),
    args5 m ρ c main_arg12 (by decide)]
  rfl

theorem w6_v25 : W6 m ρ c (Proc.devRef .tc main_v25) = art1 m c :=
  (keep_region3 m ρ c main_v25 (by decide)).trans (w5_v25 m ρ c)

/-! ## The third aggregation: the users' first-layer features over the edges into articles -/

theorem w7_v72 : W7 m ρ c (Proc.devRef .tc main_v72) = meanIn (F := Ideal) (usr1 m c) (arg m c main_arg2) := by
  have e : W7 m ρ c (Proc.devRef .tc main_v72)
      = meanIn (F := Ideal) (W6 m ρ c (Proc.devRef .tc main_v49)) (W6 m ρ c (Proc.devRef .tc main_arg2)) := by
    show StableHlo.after hostOps4 (W6 m ρ c) (Proc.devRef .tc main_v72) = _
    after_results_simp <;> rfl
  rw [e, w6_v49 m ρ c, args6 m ρ c main_arg2 (by decide)]

theorem w7_v25 : W7 m ρ c (Proc.devRef .tc main_v25) = art1 m c :=
  (keep_host4 m ρ c main_v25 (by decide)).trans (w6_v25 m ρ c)

/-! ## The output weights and bias padded to 128 rows: the first two are the arguments' -/

/-- The padded output weight array: a zero-extension (by whatever the padding value is) of the [2, 64] argument. -/
theorem w8_v73 : ∃ v, W8 m ρ c (Proc.devRef .tc main_v73)
    = pad S128x64 ![0, 0] ![126, 0] ![0, 0] (arg m c main_arg20) v pads_S2x64_S128x64_01260_000 h_S_ := by
  have e : W8 m ρ c (Proc.devRef .tc main_v73)
      = pad S128x64 ![0, 0] ![126, 0] ![0, 0] (W7 m ρ c (Proc.devRef .tc main_arg20))
          (sitofp (F := Ideal) .f32 (W7 m ρ c (Proc.devRef .tc main_c_16))) pads_S2x64_S128x64_01260_000 h_S_ := by
    show StableHlo.after hostOps4_1 (W7 m ρ c) (Proc.devRef .tc main_v73) = _
    after_results_simp <;> rfl
  rw [args7 m ρ c main_arg20 (by decide)] at e
  exact ⟨_, e⟩

theorem w10_v73 : W10 m ρ c (Proc.devRef .tc main_v73) = W8 m ρ c (Proc.devRef .tc main_v73) :=
  (keep_host4_3 m ρ c main_v73 (by decide)).trans (keep_host4_2 m ρ c main_v73 (by decide))

/-- The padded output bias vector. -/
theorem w10_v74 : ∃ v, W10 m ρ c (Proc.devRef .tc main_v74)
    = pad S128 ![0] ![126] ![0] (arg m c main_arg21) v pads_S2_S128_01260 h_S_ := by
  have e : W10 m ρ c (Proc.devRef .tc main_v74)
      = pad S128 ![0] ![126] ![0] (W9 m ρ c (Proc.devRef .tc main_arg21))
          (sitofp (F := Ideal) .f32 (W9 m ρ c (Proc.devRef .tc main_c_17))) pads_S2_S128_01260 h_S_ := by
    show StableHlo.after hostOps4_3 (W9 m ρ c) (Proc.devRef .tc main_v74) = _
    after_results_simp <;> rfl
  rw [args9 m ρ c main_arg21 (by decide)] at e
  exact ⟨_, e⟩

theorem w10_v72 : W10 m ρ c (Proc.devRef .tc main_v72) = meanIn (F := Ideal) (usr1 m c) (arg m c main_arg2) :=
  (keep_host4_3 m ρ c main_v72 (by decide)).trans ((keep_host4_2 m ρ c main_v72 (by decide)).trans
    ((keep_host4_1 m ρ c main_v72 (by decide)).trans (w7_v72 m ρ c)))

theorem w10_v25 : W10 m ρ c (Proc.devRef .tc main_v25) = art1 m c :=
  (keep_host4_3 m ρ c main_v25 (by decide)).trans ((keep_host4_2 m ρ c main_v25 (by decide)).trans
    ((keep_host4_1 m ρ c main_v25 (by decide)).trans (w7_v25 m ρ c)))

/-! ## The articles' second convolution fused with the output map, on 128 columns -/

theorem w11_v75 : W11 m ρ c (Proc.devRef .tc main_v75)
    = head (last (usr1 m c) (arg m c main_arg2) (art1 m c) (arg m c main_arg14) (arg m c main_arg15) (arg m c main_arg16))
        (W10 m ρ c (Proc.devRef .tc main_v73)) (row (W10 m ρ c (Proc.devRef .tc main_v74))) := by
  refine (W11_arr m ρ c 7).trans ((Region4.final (V10 m ρ) c).trans ?_)
  show head (comb (W10 m ρ c (Proc.devRef .tc main_v72)) (W10 m ρ c (Proc.devRef .tc main_v25))
      (W10 m ρ c (Proc.devRef .tc main_arg14)) (W10 m ρ c (Proc.devRef .tc main_arg16))
      (row (W10 m ρ c (Proc.devRef .tc main_arg15))))
      (W10 m ρ c (Proc.devRef .tc main_v73)) (row (W10 m ρ c (Proc.devRef .tc main_v74))) = _
  rw [w10_v72 m ρ c, w10_v25 m ρ c, args10 m ρ c main_arg14 (by decide), args10 m ρ c main_arg16 (by decide),
    args10 m ρ c main_arg15 (by decide)]
  rfl

/-! ## The result: the first two of the 128 columns -/

theorem w12_v76 : W12 m ρ c (Proc.devRef .tc main_v76)
    = extractStridedSlice S100000x2 ![0, 0] (W11 m ρ c (Proc.devRef .tc main_v75)) slices_S100000x128_S100000x2_0_0 := by
  show StableHlo.after hostOps5 (W11 m ρ c) (Proc.devRef .tc main_v76) = _
  after_results_simp <;> rfl

/-- The program's result is the network of its arguments: the padding rows of the output weights and bias are never
    read by the two columns that are kept. -/
theorem result : W12 m ρ c (Proc.devRef .tc main_v76)
    = net (arg m c main_arg0) (arg m c main_arg1) (arg m c main_arg2) (arg m c main_arg3) (arg m c main_arg4)
        (arg m c main_arg5) (arg m c main_arg6) (arg m c main_arg7) (arg m c main_arg8) (arg m c main_arg9)
        (arg m c main_arg10) (arg m c main_arg11) (arg m c main_arg12) (arg m c main_arg13) (arg m c main_arg14)
        (arg m c main_arg15) (arg m c main_arg16) (arg m c main_arg20) (arg m c main_arg21) := by
  obtain ⟨vw, hw⟩ := w8_v73 m ρ c
  obtain ⟨vb, hb⟩ := w10_v74 m ρ c
  rw [w12_v76 m ρ c, w11_v75 m ρ c]
  funext i
  obtain ⟨p, q, rfl⟩ : ∃ (p : Fin 100000) (q : Fin 2), i = ix2 p q := ⟨i 0, i 1, eq_ix2 i⟩
  have hq : q.val < 128 := by have := q.isLt; omega
  rw [extractStridedSlice_apply ![0, 0] _ slices_S100000x128_S100000x2_0_0 (ix2 p q) (ix2 p (⟨q.val, hq⟩ : Fin 128))
    (fun a => by
      match a with
      | ⟨0, _⟩ => exact (Nat.zero_add _).symm
      | ⟨1, _⟩ => exact (Nat.zero_add _).symm)]
  refine head_cols _ (arg m c main_arg20) _ (row (arg m c main_arg21)) _ p q ⟨q.val, hq⟩ (fun k => ?_) ?_
  · rw [w10_v73 m ρ c, hw]
    exact pad_apply_of_inside ![0, 0] ![126, 0] ![0, 0] (arg m c main_arg20) vw pads_S2x64_S128x64_01260_000 h_S_
      (ix2 (⟨q.val, hq⟩ : Fin 128) k) (ix2 q k) (fun a => by
        match a with
        | ⟨0, _⟩ => show q.val = 0 + q.val * (0 + 1); omega
        | ⟨1, _⟩ => show k.val = 0 + k.val * (0 + 1); omega)
  · show W10 m ρ c (Proc.devRef .tc main_v74) (ix1 (⟨q.val, hq⟩ : Fin 128)) = arg m c main_arg21 (ix1 q)
    rw [hb]
    exact pad_apply_of_inside ![0] ![126] ![0] (arg m c main_arg21) vb pads_S2_S128_01260 h_S_
      (ix1 (⟨q.val, hq⟩ : Fin 128)) (ix1 q) (fun a => by
        match a with
        | ⟨0, _⟩ => show q.val = 0 + q.val * (0 + 1); omega)

end Cert.KernelIdeal.Result

end
-- ==== Proof.RefValue.lean ====
/-
  The idealized reference computes the model network.

  The reference is one straight line of host operations. Read stage by stage: each node type's projection is a dot
  product with the transposed weights, the bias broadcast to every row, and a maximum with zero; each aggregation is the
  shared chain of gather, scatter-add, count and divide applied to the stage it gathers from; each convolution step is two
  dot products with transposed weights, the bias added after the first, the second added after that, and (in the first
  layer) a maximum with zero; the output is one more dot product with transposed weights plus its bias. Each of these is
  the corresponding layer function on the extended reals, so the reference's result is the network.
-/
import proofs.«125365_j87960930222107_1_alg».proof.Proof.Gen.ReferenceIdeal.Read
import proofs.«125365_j87960930222107_1_alg».proof.Proof.Model

set_option maxRecDepth 16384

noncomputable section

namespace Cert.ReferenceIdeal.RefValue

open Cert.ReferenceIdeal Cert.ReferenceIdeal.Read
open Idealize.ShloMosaic Cert.Dense Cert.SageT Cert.Aggregate Cert.Model

/-- The articles' projection. -/
theorem artIn_eq (x0 : (⟨S100000x300, .f32⟩ : BufTy).Contents (Elt Ideal)) (x4 : (⟨S64x300, .f32⟩ : BufTy).Contents (Elt Ideal)) (x5 : (⟨S64, .f32⟩ : BufTy).Contents (Elt Ideal)) :
    val_main_v5 (F := Ideal) x0 x4 x5 = proj x0 x4 (row x5) := by
  unfold val_main_v5 val_main_v4 val_main_v1 val_main_v0 val_main_v3 val_main_v2 val_main_call0_v0 val_main_call0_cst
  exact hostProj dot_S100000x300_S300x64_S100000x64_1_0_0_1_n_n rfl rfl rfl rfl rfl rfl x0 x4 x5 _ _ _ _

/-- The users' projection. -/
theorem usrIn_eq (x1 : (⟨S100000x64, .f32⟩ : BufTy).Contents (Elt Ideal)) (x6 : (⟨S64x64, .f32⟩ : BufTy).Contents (Elt Ideal)) (x7 : (⟨S64, .f32⟩ : BufTy).Contents (Elt Ideal)) :
    val_main_v11 (F := Ideal) x1 x6 x7 = proj x1 x6 (row x7) := by
  unfold val_main_v11 val_main_v10 val_main_v7 val_main_v6 val_main_v9 val_main_v8 val_main_call1_v0 val_main_call1_cst
  exact hostProj dot_S100000x64_S64x64_S100000x64_1_0_0_1_n_n rfl rfl rfl rfl rfl rfl x1 x6 x7 _ _ _ _

/-- The users' projected features averaged over the edges into each article: the shared chain, applied to that stage. -/
theorem agg1_eq (x1 : (⟨S100000x64, .f32⟩ : BufTy).Contents (Elt Ideal)) (x2 : (⟨S2x1600000, .i32⟩ : BufTy).Contents (Elt Ideal)) (x6 : (⟨S64x64, .f32⟩ : BufTy).Contents (Elt Ideal)) (x7 : (⟨S64, .f32⟩ : BufTy).Contents (Elt Ideal)) :
    val_main_v34 (F := Ideal) x1 x2 x6 x7 = meanIn (F := Ideal) (val_main_v11 (F := Ideal) x1 x6 x7) x2 := by
  unfold val_main_v34 val_main_v25 val_main_v23 val_main_cst val_main_v24 val_main_v15 val_main_v14 val_main_v22 val_main_v21 val_main_v20 val_main_v17 val_main_v13 val_main_v12 val_main_v16 val_main_c val_main_v19 val_main_v18 val_main_c_0 val_main_v33 val_main_v32 val_main_v31 val_main_v29 val_main_v27 val_main_cst_2 val_main_v28 val_main_v26 val_main_cst_1 val_main_v30 val_main_cst_3
  rfl

/-- The articles' first convolution step. -/
theorem art1_eq (x0 : (⟨S100000x300, .f32⟩ : BufTy).Contents (Elt Ideal)) (x1 : (⟨S100000x64, .f32⟩ : BufTy).Contents (Elt Ideal)) (x2 : (⟨S2x1600000, .i32⟩ : BufTy).Contents (Elt Ideal)) (x4 : (⟨S64x300, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v43 (F := Ideal) x0 x1 x2 x4 x5 x6 x7 x8 x9 x10
      = combRelu (val_main_v34 (F := Ideal) x1 x2 x6 x7) (val_main_v5 (F := Ideal) x0 x4 x5) x8 x10 (row x9) := by
  unfold val_main_v43 val_main_v42 val_main_v39 val_main_v36 val_main_v35 val_main_v38 val_main_v37 val_main_v41 val_main_v40 val_main_call2_v0 val_main_call2_cst
  exact hostCombRelu dot_S100000x64_S64x64_S100000x64_1_0_0_1_n_n rfl rfl rfl rfl rfl rfl _ _ x8 x10 x9 _ _ _ _

/-- The articles' projected features averaged over the edges into each user. -/
theorem agg2_eq (x0 : (⟨S100000x300, .f32⟩ : BufTy).Contents (Elt Ideal)) (x3 : (⟨S2x1600000, .i32⟩ : BufTy).Contents (Elt Ideal)) (x4 : (⟨S64x300, .f32⟩ : BufTy).Contents (Elt Ideal)) (x5 : (⟨S64, .f32⟩ : BufTy).Contents (Elt Ideal)) :
    val_main_v66 (F := Ideal) x0 x3 x4 x5 = meanIn (F := Ideal) (val_main_v5 (F := Ideal) x0 x4 x5) x3 := by
  unfold val_main_v66 val_main_v57 val_main_v55 val_main_cst_6 val_main_v56 val_main_v47 val_main_v46 val_main_v54 val_main_v53 val_main_v52 val_main_v49 val_main_v45 val_main_v44 val_main_v48 val_main_c_4 val_main_v51 val_main_v50 val_main_c_5 val_main_v65 val_main_v64 val_main_v63 val_main_v61 val_main_v59 val_main_cst_8 val_main_v60 val_main_v58 val_main_cst_7 val_main_v62 val_main_cst_9
  rfl

/-- The users' first convolution step. -/
theorem usr1_eq (x0 : (⟨S100000x300, .f32⟩ : BufTy).Contents (Elt Ideal)) (x1 : (⟨S100000x64, .f32⟩ : BufTy).Contents (Elt Ideal)) (x3 : (⟨S2x1600000, .i32⟩ : BufTy).Contents (Elt Ideal)) (x4 : (⟨S64x300, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) :
    val_main_v75 (F := Ideal) x0 x1 x3 x4 x5 x6 x7 x11 x12 x13
      = combRelu (val_main_v66 (F := Ideal) x0 x3 x4 x5) (val_main_v11 (F := Ideal) x1 x6 x7) x11 x13 (row x12) := by
  unfold val_main_v75 val_main_v74 val_main_v71 val_main_v68 val_main_v67 val_main_v70 val_main_v69 val_main_v73 val_main_v72 val_main_call3_v0 val_main_call3_cst
  exact hostCombRelu dot_S100000x64_S64x64_S100000x64_1_0_0_1_n_n rfl rfl rfl rfl rfl rfl _ _ x11 x13 x12 _ _ _ _

/-- The users' first-layer features averaged over the edges into each article. -/
theorem agg3_eq (x0 : (⟨S100000x300, .f32⟩ : BufTy).Contents (Elt Ideal)) (x1 : (⟨S100000x64, .f32⟩ : BufTy).Contents (Elt Ideal)) (x2 : (⟨S2x1600000, .i32⟩ : BufTy).Contents (Elt Ideal)) (x3 : (⟨S2x1600000, .i32⟩ : BufTy).Contents (Elt Ideal)) (x4 : (⟨S64x300, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) :
    val_main_v98 (F := Ideal) x0 x1 x2 x3 x4 x5 x6 x7 x11 x12 x13 = meanIn (F := Ideal) (val_main_v75 (F := Ideal) x0 x1 x3 x4 x5 x6 x7 x11 x12 x13) x2 := by
  unfold val_main_v98 val_main_v89 val_main_v87 val_main_cst_12 val_main_v88 val_main_v79 val_main_v78 val_main_v86 val_main_v85 val_main_v84 val_main_v81 val_main_v77 val_main_v76 val_main_v80 val_main_c_10 val_main_v83 val_main_v82 val_main_c_11 val_main_v97 val_main_v96 val_main_v95 val_main_v93 val_main_v91 val_main_cst_14 val_main_v92 val_main_v90 val_main_cst_13 val_main_v94 val_main_cst_15
  rfl

/-- The articles' second convolution step, not rectified. -/
theorem last_eq (x0 : (⟨S100000x300, .f32⟩ : BufTy).Contents (Elt Ideal)) (x1 : (⟨S100000x64, .f32⟩ : BufTy).Contents (Elt Ideal)) (x2 : (⟨S2x1600000, .i32⟩ : BufTy).Contents (Elt Ideal)) (x3 : (⟨S2x1600000, .i32⟩ : BufTy).Contents (Elt Ideal)) (x4 : (⟨S64x300, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x64, .f32⟩ : BufTy).Contents (Elt Ideal)) (x15 : (⟨S64, .f32⟩ : BufTy).Contents (Elt Ideal)) (x16 : (⟨S64x64, .f32⟩ : BufTy).Contents (Elt Ideal)) :
    val_main_v106 (F := Ideal) x0 x1 x2 x3 x4 x5 x6 x7 x8 x9 x10 x11 x12 x13 x14 x15 x16
      = comb (val_main_v98 (F := Ideal) x0 x1 x2 x3 x4 x5 x6 x7 x11 x12 x13) (val_main_v43 (F := Ideal) x0 x1 x2 x4 x5 x6 x7 x8 x9 x10) x14 x16 (row x15) := by
  unfold val_main_v106 val_main_v103 val_main_v100 val_main_v99 val_main_v102 val_main_v101 val_main_v105 val_main_v104
  exact hostComb dot_S100000x64_S64x64_S100000x64_1_0_0_1_n_n rfl rfl rfl rfl rfl rfl _ _ x14 x16 x15 _ _ _

/-- The output map. -/
theorem out_eq (x0 : (⟨S100000x300, .f32⟩ : BufTy).Contents (Elt Ideal)) (x1 : (⟨S100000x64, .f32⟩ : BufTy).Contents (Elt Ideal)) (x2 : (⟨S2x1600000, .i32⟩ : BufTy).Contents (Elt Ideal)) (x3 : (⟨S2x1600000, .i32⟩ : BufTy).Contents (Elt Ideal)) (x4 : (⟨S64x300, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x64, .f32⟩ : BufTy).Contents (Elt Ideal)) (x15 : (⟨S64, .f32⟩ : BufTy).Contents (Elt Ideal)) (x16 : (⟨S64x64, .f32⟩ : BufTy).Contents (Elt Ideal)) (x20 : (⟨S2x64, .f32⟩ : BufTy).Contents (Elt Ideal)) (x21 : (⟨S2, .f32⟩ : BufTy).Contents (Elt Ideal)) :
    val_main_v111 (F := Ideal) x0 x1 x2 x3 x4 x5 x6 x7 x8 x9 x10 x11 x12 x13 x14 x15 x16 x20 x21
      = head (val_main_v106 (F := Ideal) x0 x1 x2 x3 x4 x5 x6 x7 x8 x9 x10 x11 x12 x13 x14 x15 x16) x20 (row x21) := by
  unfold val_main_v111 val_main_v108 val_main_v107 val_main_v110 val_main_v109
  exact hostHead dot_S100000x64_S64x2_S100000x2_1_0_0_1_n_n rfl rfl rfl rfl rfl rfl _ x20 x21 _ _ _

/-- The reference's result is the network of its arguments. -/
theorem net_eq (x0 : (⟨S100000x300, .f32⟩ : BufTy).Contents (Elt Ideal)) (x1 : (⟨S100000x64, .f32⟩ : BufTy).Contents (Elt Ideal)) (x2 : (⟨S2x1600000, .i32⟩ : BufTy).Contents (Elt Ideal)) (x3 : (⟨S2x1600000, .i32⟩ : BufTy).Contents (Elt Ideal)) (x4 : (⟨S64x300, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x64, .f32⟩ : BufTy).Contents (Elt Ideal)) (x15 : (⟨S64, .f32⟩ : BufTy).Contents (Elt Ideal)) (x16 : (⟨S64x64, .f32⟩ : BufTy).Contents (Elt Ideal)) (x20 : (⟨S2x64, .f32⟩ : BufTy).Contents (Elt Ideal)) (x21 : (⟨S2, .f32⟩ : BufTy).Contents (Elt Ideal)) :
    val_main_v111 (F := Ideal) x0 x1 x2 x3 x4 x5 x6 x7 x8 x9 x10 x11 x12 x13 x14 x15 x16 x20 x21
      = net x0 x1 x2 x3 x4 x5 x6 x7 x8 x9 x10 x11 x12 x13 x14 x15 x16 x20 x21 := by
  rw [out_eq, last_eq, agg3_eq, usr1_eq, agg2_eq, art1_eq, agg1_eq, artIn_eq, usrIn_eq]
  rfl

end Cert.ReferenceIdeal.RefValue

end
-- ==== Proof.lean ====
/-
  A two-layer heterogeneous graph network (articles and users, mean aggregation over incoming edges) computed by five
  grid regions with the gather / scatter aggregation on the host between them, against the same network written as one
  straight line of host operations.

  On the extended reals a change of float format is the identity and a matrix product into a zero accumulator is the
  matrix product, so each region's row block is the same layer function of its operands' row blocks as the reference's
  layer is of the whole arrays; a row of a layer depends on the same row of its left operands only, so the blocks of
  rows assemble to the layer of the whole arrays. The aggregation between the layers is the same chain of host
  operations in both programs and is carried as one function. The kernel computes the last layer on 128 output columns
  whose weights and biases beyond the first two are padding, and keeps the first two columns: those never read the
  padding. Both programs therefore end with the network `Cert.Model.net` of their arguments; no step uses more of the
  extended reals than that both sides apply the same operations in the same order, so the finiteness of the inputs is
  never opened.

  The three frames are the generated ones (the reference's is its generated run with the result dropped); the
  idealization rewrote no operation, so there is nothing to preserve.
-/
import proofs.«125365_j87960930222107_1_alg».proof.Defs
import proofs.«125365_j87960930222107_1_alg».proof.Proof.Gen.Kernel
import proofs.«125365_j87960930222107_1_alg».proof.Proof.Gen.Kernel.Skeleton
import proofs.«125365_j87960930222107_1_alg».proof.Proof.Gen.Kernel.Launch
import proofs.«125365_j87960930222107_1_alg».proof.Proof.Gen.Kernel.Points
import proofs.«125365_j87960930222107_1_alg».proof.Proof.Gen.Kernel.Frame
import proofs.«125365_j87960930222107_1_alg».proof.Proof.Gen.KernelIdeal
import proofs.«125365_j87960930222107_1_alg».proof.Proof.Gen.KernelIdeal.Skeleton
import proofs.«125365_j87960930222107_1_alg».proof.Proof.Gen.KernelIdeal.Launch
import proofs.«125365_j87960930222107_1_alg».proof.Proof.Gen.KernelIdeal.Points
import proofs.«125365_j87960930222107_1_alg».proof.Proof.Gen.KernelIdeal.Frame
import proofs.«125365_j87960930222107_1_alg».proof.Proof.Gen.ReferenceIdeal
import proofs.«125365_j87960930222107_1_alg».proof.Proof.Gen.Pre_finite_inputs
import proofs.«125365_j87960930222107_1_alg».proof.Proof.Gen.ReferenceIdeal.Run
import proofs.«125365_j87960930222107_1_alg».proof.Proof.Gen.ReferenceIdeal.Read
import proofs.«125365_j87960930222107_1_alg».proof.Proof.KernelRun
import proofs.«125365_j87960930222107_1_alg».proof.Proof.KernelValue
import proofs.«125365_j87960930222107_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the network of the arguments in their
    result buffers. -/
theorem algebraic : Cert.algebraic_KernelIdeal_ReferenceIdeal := by
  intro m ρ m' ρ' _ hagree
  refine ⟨fun c => Cert.Model.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)),
    ?_, ?_⟩
  · exact (θ_run Cert.KernelIdeal.defs _ _).mono
      (fun r h c => ⟨(h c).1.trans (Cert.KernelIdeal.Result.result m ρ c), (h c).2⟩)
      (Cert.KernelIdeal.Run.run_value (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14, h15, h16, h17, h18, h19, h20, h21⟩ := hagree c
    rw [(h c).1, Cert.ReferenceIdeal.Read.val_main_v111_eq, Cert.ReferenceIdeal.RefValue.net_eq,
      h0, h1, h2, h3, h4, h5, h6, h7, h8, h9, h10, h11, h12, h13, h14, h15, h16, h20, h21]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
